-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v50)) (v1 : (c : Dev Cert.KernelIdeal.nD) → Buf (Elt Ideal) ((c.tc : Thread Cert.KernelIdeal.nD Cert.KernelIdeal.τ).loc Cert.KernelIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_v118) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x64 : Shape := ⟨2, ![50000, 64]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128 .f32) (main_arg5 : FVec F S128x64 .f32) (main_arg6 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : FVec F S50000x64 .f32) (main_arg2 : FVec F S800000 .f32) (main_arg3 : FVec F S128x128 .f32) (main_arg4 : FVec F S128 .f32) (main_arg5 : FVec F S128x64 .f32) (main_arg6 : FVec F S64 .f32) (main_arg7 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S800000 .f32 := Host.absf main_arg2
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S50000x128 : Shape := ⟨2, ![50000, 128]⟩
abbrev S50000x64 : Shape := ⟨2, ![50000, 64]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x800000 : Shape := ⟨2, ![2, 800000]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S5000x128 : Shape := ⟨2, ![5000, 128]⟩
abbrev S800000x128 : Shape := ⟨2, ![800000, 128]⟩
abbrev S1x128 : Shape := ⟨2, ![1, 128]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 157
  | .vmem => 21
  | .smem => 0
  | _ => 0

abbrev hbmTy0_0 (i : Nat) : BufTy := match i % 128 with
  | 0 => ⟨S50000x128, .f32⟩
  | 1 => ⟨S50000x64, .f32⟩
  | 2 => ⟨S800000, .f32⟩
  | 3 => ⟨S128x128, .f32⟩
  | 4 => ⟨S128, .f32⟩
  | 5 => ⟨S128x64, .f32⟩
  | 6 => ⟨S64, .f32⟩
  | 7 => ⟨S2x800000, .i32⟩
  | 8 => ⟨S1x800000, .i32⟩
  | 9 => ⟨S800000, .i32⟩
  | 10 => ⟨S1x800000, .i32⟩
  | 11 => ⟨S800000, .i32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .i1⟩
  | 19 => ⟨S_, .f32⟩
  | 20 => ⟨S50000, .f32⟩
  | 21 => ⟨S50000, .f32⟩
  | 22 => ⟨S_, .f32⟩
  | 23 => ⟨S_, .f32⟩
  | 24 => ⟨S50000, .f32⟩
  | 25 => ⟨S50000, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S800000, .f32⟩
  | 36 => ⟨S50000x128, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x128, .f32⟩
  | 46 => ⟨S800000x1, .f32⟩
  | 47 => ⟨S800000x128, .f32⟩
  | 48 => ⟨S800000x128, .f32⟩
  | 49 => ⟨S_, .f32⟩
  | 50 => ⟨S50000x128, .f32⟩
  | 51 => ⟨S800000x1, .i32⟩
  | 52 => ⟨S50000x128, .f32⟩
  | 53 => ⟨S1x128, .f32⟩
  | 54 => ⟨S50000x64, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x64, .f32⟩
  | 64 => ⟨S800000x1, .f32⟩
  | 65 => ⟨S800000x64, .f32⟩
  | 66 => ⟨S800000x64, .f32⟩
  | 67 => ⟨S_, .f32⟩
  | 68 => ⟨S50000x64, .f32⟩
  | 69 => ⟨S800000x1, .i32⟩
  | 70 => ⟨S50000x64, .f32⟩
  | 71 => ⟨S1x64, .f32⟩
  | 72 => ⟨S50000x64, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x64, .f32⟩
  | 82 => ⟨S800000x1, .f32⟩
  | 83 => ⟨S800000x64, .f32⟩
  | 84 => ⟨S800000x64, .f32⟩
  | 85 => ⟨S_, .f32⟩
  | 86 => ⟨S50000x64, .f32⟩
  | 87 => ⟨S800000x1, .i32⟩
  | 88 => ⟨S50000x64, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x64, .f32⟩
  | 98 => ⟨S800000x1, .f32⟩
  | 99 => ⟨S800000x64, .f32⟩
  | 100 => ⟨S800000x64, .f32⟩
  | 101 => ⟨S_, .f32⟩
  | 102 => ⟨S50000x64, .f32⟩
  | 103 => ⟨S800000x1, .i32⟩
  | 104 => ⟨S50000x64, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x64, .f32⟩
  | 114 => ⟨S800000x1, .f32⟩
  | 115 => ⟨S800000x64, .f32⟩
  | 116 => ⟨S800000x64, .f32⟩
  | 117 => ⟨S_, .f32⟩
  | 118 => ⟨S50000x64, .f32⟩
  | 119 => ⟨S800000x1, .i32⟩
  | 120 => ⟨S50000x64, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x128, .f32⟩

abbrev hbmTy0_1 (i : Nat) : BufTy := match i % 128 with
  | 0 => ⟨S800000x1, .i32⟩
  | 1 => ⟨S800000x64, .f32⟩
  | 2 => ⟨S800000x1, .f32⟩
  | 3 => ⟨S800000x64, .f32⟩
  | 4 => ⟨S800000x64, .f32⟩
  | 5 => ⟨S_, .f32⟩
  | 6 => ⟨S50000x64, .f32⟩
  | 7 => ⟨S800000x1, .i32⟩
  | 8 => ⟨S50000x64, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x64, .f32⟩
  | 18 => ⟨S800000x1, .f32⟩
  | 19 => ⟨S800000x64, .f32⟩
  | 20 => ⟨S800000x64, .f32⟩
  | 21 => ⟨S_, .f32⟩
  | 22 => ⟨S50000x64, .f32⟩
  | 23 => ⟨S800000x1, .i32⟩
  | 24 => ⟨S50000x64, .f32⟩
  | 25 => ⟨S_, .f32⟩
  | 26 => ⟨S64, .f32⟩
  | 27 => ⟨S1x64, .f32⟩
  | 28 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S1x64, .f32⟩
  | .local _ .vmem, ⟨19, _⟩ => ⟨S5000x64, .f32⟩
  | .local _ .vmem, ⟨20, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_16 : Ref sig .tc := ⟨.hbm, 105, rfl⟩
abbrev main_v77 : Ref sig .tc := ⟨.hbm, 106, rfl⟩
abbrev main_v78 : Ref sig .tc := ⟨.hbm, 107, rfl⟩
abbrev main_c_17 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_18 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_c_19 : Ref sig .tc := ⟨.hbm, 121, rfl⟩
abbrev main_v90 : Ref sig .tc := ⟨.hbm, 122, rfl⟩
abbrev main_v91 : Ref sig .tc := ⟨.hbm, 123, rfl⟩
abbrev main_c_20 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_21 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_c_22 : Ref sig .tc := ⟨.hbm, 137, rfl⟩
abbrev main_v103 : Ref sig .tc := ⟨.hbm, 138, rfl⟩
abbrev main_v104 : Ref sig .tc := ⟨.hbm, 139, rfl⟩
abbrev main_c_23 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_24 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_25 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S64 : S_.BroadcastsInDim S64 (![] : Fin 0 → Fin S64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v115) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v117) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v118) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S50000x64 : Shape := ⟨2, ![50000, 64]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x800000 : Shape := ⟨2, ![2, 800000]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128 : Shape := ⟨2, ![1, 128]⟩
abbrev S800000x64 : Shape := ⟨2, ![800000, 64]⟩
abbrev S1x64 : Shape := ⟨2, ![1, 64]⟩

abbrev nBuf : Space → Nat
  | .hbm => 175
  | .vmem => 0
  | .smem => 0
  | _ => 0

abbrev hbmTy0_0 (i : Nat) : BufTy := match i % 128 with
  | 0 => ⟨S50000x128, .f32⟩
  | 1 => ⟨S50000x64, .f32⟩
  | 2 => ⟨S800000, .f32⟩
  | 3 => ⟨S128x128, .f32⟩
  | 4 => ⟨S128, .f32⟩
  | 5 => ⟨S128x64, .f32⟩
  | 6 => ⟨S64, .f32⟩
  | 7 => ⟨S2x800000, .i32⟩
  | 8 => ⟨S1x800000, .i32⟩
  | 9 => ⟨S800000, .i32⟩
  | 10 => ⟨S1x800000, .i32⟩
  | 11 => ⟨S800000, .i32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .i1⟩
  | 19 => ⟨S_, .f32⟩
  | 20 => ⟨S50000, .f32⟩
  | 21 => ⟨S50000, .f32⟩
  | 22 => ⟨S_, .f32⟩
  | 23 => ⟨S_, .f32⟩
  | 24 => ⟨S50000, .f32⟩
  | 25 => ⟨S50000, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S800000, .f32⟩
  | 36 => ⟨S50000x128, .f32⟩
  | 37 => ⟨S800000x1, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x128, .f32⟩
  | 47 => ⟨S800000x128, .f32⟩
  | 48 => ⟨S800000x128, .f32⟩
  | 49 => ⟨S_, .f32⟩
  | 50 => ⟨S50000x128, .f32⟩
  | 51 => ⟨S800000x1, .i32⟩
  | 52 => ⟨S50000x128, .f32⟩
  | 53 => ⟨S1x128, .f32⟩
  | 54 => ⟨S50000x128, .f32⟩
  | 55 => ⟨S50000x128, .f32⟩
  | 56 => ⟨S_, .f32⟩
  | 57 => ⟨S50000x128, .f32⟩
  | 58 => ⟨S50000x128, .f32⟩
  | 59 => ⟨S50000x64, .f32⟩
  | 60 => ⟨S800000x1, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x64, .f32⟩
  | 70 => ⟨S800000x64, .f32⟩
  | 71 => ⟨S800000x64, .f32⟩
  | 72 => ⟨S_, .f32⟩
  | 73 => ⟨S50000x64, .f32⟩
  | 74 => ⟨S800000x1, .i32⟩
  | 75 => ⟨S50000x64, .f32⟩
  | 76 => ⟨S1x64, .f32⟩
  | 77 => ⟨S50000x64, .f32⟩
  | 78 => ⟨S50000x64, .f32⟩
  | 79 => ⟨S50000x64, .f32⟩
  | 80 => ⟨S50000x64, .f32⟩
  | 81 => ⟨S_, .f32⟩
  | 82 => ⟨S50000x64, .f32⟩
  | 83 => ⟨S50000x64, .f32⟩
  | 84 => ⟨S_, .f32⟩
  | 85 => ⟨S50000x64, .f32⟩
  | 86 => ⟨S50000x64, .f32⟩
  | 87 => ⟨S800000x1, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x64, .f32⟩
  | 97 => ⟨S800000x64, .f32⟩
  | 98 => ⟨S800000x64, .f32⟩
  | 99 => ⟨S_, .f32⟩
  | 100 => ⟨S50000x64, .f32⟩
  | 101 => ⟨S800000x1, .i32⟩
  | 102 => ⟨S50000x64, .f32⟩
  | 103 => ⟨S800000x1, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x64, .f32⟩
  | 113 => ⟨S800000x64, .f32⟩
  | 114 => ⟨S800000x64, .f32⟩
  | 115 => ⟨S_, .f32⟩
  | 116 => ⟨S50000x64, .f32⟩
  | 117 => ⟨S800000x1, .i32⟩
  | 118 => ⟨S50000x64, .f32⟩
  | 119 => ⟨S800000x1, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x128, .f32⟩

abbrev hbmTy0_1 (i : Nat) : BufTy := match i % 128 with
  | 0 => ⟨S800000x64, .f32⟩
  | 1 => ⟨S800000x64, .f32⟩
  | 2 => ⟨S800000x64, .f32⟩
  | 3 => ⟨S_, .f32⟩
  | 4 => ⟨S50000x64, .f32⟩
  | 5 => ⟨S800000x1, .i32⟩
  | 6 => ⟨S50000x64, .f32⟩
  | 7 => ⟨S800000x1, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x64, .f32⟩
  | 17 => ⟨S800000x64, .f32⟩
  | 18 => ⟨S800000x64, .f32⟩
  | 19 => ⟨S_, .f32⟩
  | 20 => ⟨S50000x64, .f32⟩
  | 21 => ⟨S800000x1, .i32⟩
  | 22 => ⟨S50000x64, .f32⟩
  | 23 => ⟨S800000x1, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x64, .f32⟩
  | 33 => ⟨S800000x64, .f32⟩
  | 34 => ⟨S800000x64, .f32⟩
  | 35 => ⟨S_, .f32⟩
  | 36 => ⟨S50000x64, .f32⟩
  | 37 => ⟨S800000x1, .i32⟩
  | 38 => ⟨S50000x64, .f32⟩
  | 39 => ⟨S50000x64, .f32⟩
  | 40 => ⟨S50000x64, .f32⟩
  | 41 => ⟨S_, .f32⟩
  | 42 => ⟨S50000x64, .f32⟩
  | 43 => ⟨S50000x64, .f32⟩
  | 44 => ⟨S_, .f32⟩
  | 45 => ⟨S50000x64, .f32⟩
  | 46 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_cst : Ref sig .tc := ⟨.hbm, 56, rfl⟩
abbrev main_call1_v0 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_7 : Ref sig .tc := ⟨.hbm, 61, rfl⟩
abbrev main_v40 : Ref sig .tc := ⟨.hbm, 62, rfl⟩
abbrev main_v41 : Ref sig .tc := ⟨.hbm, 63, rfl⟩
abbrev main_c_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_12 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_15 : Ref sig .tc := ⟨.hbm, 104, rfl⟩
abbrev main_v75 : Ref sig .tc := ⟨.hbm, 105, rfl⟩
abbrev main_v76 : Ref sig .tc := ⟨.hbm, 106, rfl⟩
abbrev main_c_16 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_17 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_c_18 : Ref sig .tc := ⟨.hbm, 120, rfl⟩
abbrev main_v88 : Ref sig .tc := ⟨.hbm, 121, rfl⟩
abbrev main_v89 : Ref sig .tc := ⟨.hbm, 122, rfl⟩
abbrev main_c_19 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_20 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_c_21 : Ref sig .tc := ⟨.hbm, 136, rfl⟩
abbrev main_v101 : Ref sig .tc := ⟨.hbm, 137, rfl⟩
abbrev main_v102 : Ref sig .tc := ⟨.hbm, 138, rfl⟩
abbrev main_c_22 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_cst_23 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_c_24 : Ref sig .tc := ⟨.hbm, 152, rfl⟩
abbrev main_v114 : Ref sig .tc := ⟨.hbm, 153, rfl⟩
abbrev main_v115 : Ref sig .tc := ⟨.hbm, 154, rfl⟩
abbrev main_c_25 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_cst_26 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_cst_27 : Ref sig .tc := ⟨.hbm, 169, rfl⟩
abbrev main_v128 : Ref sig .tc := ⟨.hbm, 170, rfl⟩
abbrev main_v129 : Ref sig .tc := ⟨.hbm, 171, rfl⟩
abbrev main_cst_28 : Ref sig .tc := ⟨.hbm, 172, rfl⟩
abbrev main_v130 : Ref sig .tc := ⟨.hbm, 173, rfl⟩
abbrev main_v131 : Ref sig .tc := ⟨.hbm, 174, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KRun.lean ====
/-
  The idealized kernel program's run, with its two results named.

  The program is ten segments: host operations, then the four kernel regions with host operations between them. The
  generated frame module folds the buffer contents through the segments (`W0 … W10`: after a stretch of host
  operations their pure results, after a region its arrays at what the write-backs leave) and proves every segment.
  Here the same segments are run once more, and the last boundary's contents are kept for the two result buffers:
  every weakly fair execution terminates, nothing faults, each result buffer ends at `W10` of it, and the eight
  argument arrays end as launched.
-/
import proofs.«175650_j5995774346009_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the two result buffers end at the last
    boundary's contents and the arguments as launched. -/
theorem run : θ_run defs (onTc (τ := τ) (main (F := F))) ⟨m, fun _ => 0, ρ⟩ (fun r => ∀ c : Dev nD,
      r.2.mem ((c.tc : Thread nD τ).loc main_v50) = W10 m ρ c (Proc.devRef .tc main_v50)
      ∧ r.2.mem ((c.tc : Thread nD τ).loc main_v118) = W10 m ρ c (Proc.devRef .tc main_v118)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v50 (by decide)),
       h c _ (mem_uc main_v118 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.KRun

end
-- ==== Proof.Spec.lean ====
/-
  The three array functions the four kernel regions compute, stated once, index by index, on the extended reals.

  * `matProd A B`: the product of an M×K array by a K×N array, entry (a, b) the sum over k of A(a,k)·B(k,b).
  * `biasRelu z agg brow`: a row `brow` (shape 1×K) added to every row of `agg`, then the maximum with `z` entrywise.
  * `biasLogistic agg brow`: a row added to every row of `agg`, then the logistic function 1 / (1 + e^(-x)) entrywise
    (with its limits 0 at −∞ and 1 at +∞).

  Coordinates of a rank-2 index are taken as numbers of the literal bounds, so that every index below is built from
  coordinates whose types are the plain `Fin M`, `Fin K`, `Fin N`.
-/
import Idealize.ShloMosaic.PureOps.Ideal
import Idealize.ShloMosaic.Lib.ValueIdx

noncomputable section

open scoped BigOperators

namespace Cert.Bridge

open Idealize.ShloMosaic Idealize.ShloMosaic.ValueIdx

/-- The row coordinate of a rank-2 index. -/
abbrev rowOf {M N : Nat} (i : (⟨2, ![M, N]⟩ : Shape).Idx) : Fin M := ⟨(i 0).val, idx2_lt0 i⟩
/-- The column coordinate of a rank-2 index. -/
abbrev colOf {M N : Nat} (i : (⟨2, ![M, N]⟩ : Shape).Idx) : Fin N := ⟨(i 1).val, idx2_lt1 i⟩

theorem rowOf_ix2 {M N : Nat} (a : Fin M) (b : Fin N) : rowOf (ix2 a b) = a := rfl
theorem colOf_ix2 {M N : Nat} (a : Fin M) (b : Fin N) : colOf (ix2 a b) = b := rfl

/-- The matrix product: entry `(a, b)` is `∑ k, A (a, k) * B (k, b)`. -/
def matProd {M K N : Nat} (A : (⟨2, ![M, K]⟩ : Shape).Idx → EReal) (B : (⟨2, ![K, N]⟩ : Shape).Idx → EReal) :
    (⟨2, ![M, N]⟩ : Shape).Idx → EReal :=
  fun i => ∑ k : Fin K, A (ix2 (rowOf i) k) * B (ix2 k (colOf i))

theorem matProd_apply {M K N : Nat} (A : (⟨2, ![M, K]⟩ : Shape).Idx → EReal) (B : (⟨2, ![K, N]⟩ : Shape).Idx → EReal)
    (a : Fin M) (b : Fin N) : matProd A B (ix2 a b) = ∑ k : Fin K, A (ix2 a k) * B (ix2 k b) := rfl

/-- A row added to every row, then the maximum with `z`. -/
def biasRelu {M K : Nat} (z : EReal) (agg : (⟨2, ![M, K]⟩ : Shape).Idx → EReal) (brow : (⟨2, ![1, K]⟩ : Shape).Idx → EReal) :
    (⟨2, ![M, K]⟩ : Shape).Idx → EReal :=
  fun i => max (agg i + brow (ix2 (0 : Fin 1) (colOf i))) z

theorem biasRelu_apply {M K : Nat} (z : EReal) (agg : (⟨2, ![M, K]⟩ : Shape).Idx → EReal) (brow : (⟨2, ![1, K]⟩ : Shape).Idx → EReal)
    (a : Fin M) (k : Fin K) : biasRelu z agg brow (ix2 a k) = max (agg (ix2 a k) + brow (ix2 (0 : Fin 1) k)) z := rfl

/-- A row added to every row, then the logistic function. -/
def biasLogistic {M N : Nat} (agg : (⟨2, ![M, N]⟩ : Shape).Idx → EReal) (brow : (⟨2, ![1, N]⟩ : Shape).Idx → EReal) :
    (⟨2, ![M, N]⟩ : Shape).Idx → EReal :=
  fun i => Ideal.logistic (agg i + brow (ix2 (0 : Fin 1) (colOf i)))

theorem biasLogistic_apply {M N : Nat} (agg : (⟨2, ![M, N]⟩ : Shape).Idx → EReal) (brow : (⟨2, ![1, N]⟩ : Shape).Idx → EReal)
    (a : Fin M) (b : Fin N) : biasLogistic agg brow (ix2 a b) = Ideal.logistic (agg (ix2 a b) + brow (ix2 (0 : Fin 1) b)) := rfl

end Cert.Bridge

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.Payload.lean ====
/-
  What each kernel body stores, read at an entry, at the ideal instance — and the same value seen from the array.

  The four bodies each load whole blocks, compute, and store one block:
    * region 0: the product of a 5000×128 block by the 128×128 weights (a change of float format is the identity here);
    * region 1: the bias row added to every row of a 5000×128 block, the maximum with zero, then the product with the
      128×64 weights;
    * regions 2 and 3: the bias row added to every row of a 5000×64 block, then the logistic function.
  A block of rows is the rows `n·5000 … n·5000 + 4999` of the array and all of its columns; the weights and the bias
  row are the same whole array at every grid point. So the value a body stores at the block entry `(p, q)` is the value
  of the whole-array function (Spec.lean) at the array entry `(n·5000 + p, q)`: the `_block` lemmas, stated over plain
  variables for the block contents and the arrays, with the block's reads given as hypotheses.
-/
import proofs.«175650_j5995774346009_1_alg».proof.Proof.Gen.KernelIdeal.Skeleton
import proofs.«175650_j5995774346009_1_alg».proof.Proof.LibMatmulNN
import proofs.«175650_j5995774346009_1_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.Bridge

/-- The zero the second body takes the maximum with. -/
abbrev zeroF : EReal := Ideal.ofBits .f32 0x00000000#32

/-! ## The payloads at a block entry -/

/-- Region 0's stored value at `(p, q)`: the sum over `k` of the row block's `(p, k)` times the weights' `(k, q)`. -/
theorem pay0_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  exact Cert.LibMatmulNN.matmul_zero_apply' dot_S5000x128_S128x128_S5000x128_1_0_0_1_n_n rfl rfl rfl rfl rfl rfl none _ _ p q

/-- Region 1's stored value at `(p, q)`: the sum over `k` of `max (block (p, k) + bias (0, k)) 0` times the weights' `(k, q)`. -/
theorem pay1_apply (x0 : Vec Ideal S5000x128 .f32) (x1 : Vec Ideal S1x128 .f32) (x2 : Vec Ideal S128x64 .f32)
    (p : Fin 5000) (q : Fin 64) :
    k1_pay1 (F := Ideal) x0 x1 x2 (ix2 p q)
      = ∑ k : Fin 128, max (x0 (ix2 p k) + x1 (ix2 (0 : Fin 1) k)) zeroF * x2 (ix2 k q) := by
  unfold k1_pay1
  refine (Cert.LibMatmulNN.matmul_zero_apply' dot_S5000x128_S128x64_S5000x64_1_0_0_1_n_n rfl rfl rfl rfl rfl rfl none _ _ p q).trans ?_
  refine Finset.sum_congr rfl fun k _ => ?_
  refine congrArg (· * x2 (ix2 k q)) ?_
  show max (shapeCast S5000x128 x0 shapeCasts_S5000x128_S5000x128 (ix2 p k)
      + broadcastTo S5000x128 (shapeCast S1x128 x1 shapeCasts_S1x128_S1x128) broadcasts_S1x128_S5000x128 (ix2 p k)) zeroF = _
  rw [shapeCast_self, shapeCast_self, broadcastTo_1b_ab_apply]

/-- Region 2's stored value at `(p, q)`: the logistic function of `block (p, q) + bias (0, q)`. -/
theorem pay2_apply (x0 : Vec Ideal S5000x64 .f32) (x1 : Vec Ideal S1x64 .f32) (p : Fin 5000) (q : Fin 64) :
    k2_pay1 (F := Ideal) x0 x1 (ix2 p q) = Ideal.logistic (x0 (ix2 p q) + x1 (ix2 (0 : Fin 1) q)) := by
  unfold k2_pay1
  show Ideal.logistic (shapeCast S5000x64 x0 shapeCasts_S5000x64_S5000x64 (ix2 p q)
      + broadcastTo S5000x64 (shapeCast S1x64 x1 shapeCasts_S1x64_S1x64) broadcasts_S1x64_S5000x64 (ix2 p q)) = _
  rw [shapeCast_self, shapeCast_self, broadcastTo_1b_ab_apply]

/-- Region 3's stored value: the same body as region 2's. -/
theorem pay3_apply (x0 : Vec Ideal S5000x64 .f32) (x1 : Vec Ideal S1x64 .f32) (p : Fin 5000) (q : Fin 64) :
    k3_pay1 (F := Ideal) x0 x1 (ix2 p q) = Ideal.logistic (x0 (ix2 p q) + x1 (ix2 (0 : Fin 1) q)) := by
  unfold k3_pay1
  show Ideal.logistic (shapeCast S5000x64 x0 shapeCasts_S5000x64_S5000x64 (ix2 p q)
      + broadcastTo S5000x64 (shapeCast S1x64 x1 shapeCasts_S1x64_S1x64) broadcasts_S1x64_S5000x64 (ix2 p q)) = _
  rw [shapeCast_self, shapeCast_self, broadcastTo_1b_ab_apply]

/-! ## A block of rows is a piece of the whole-array function -/

/-- An array index whose coordinates are `(n·5000 + p, q)` is `ix2` of them. -/
theorem idx_of_coords {R C : Nat} (i : (⟨2, ![R, C]⟩ : Shape).Idx) (r : Fin R) (q : Fin C)
    (h0 : (i 0).val = r.val) (h1 : (i 1).val = q.val) : i = ix2 r q := by
  funext a
  apply Fin.ext
  match a with
  | ⟨0, _⟩ => exact h0
  | ⟨1, _⟩ => exact h1

/-- Region 0: the body's value at the block entry `j` is the product `A · B` at the array entry `i`, when the row block
    holds rows `n·5000 + p` of `A`, the weight block is `B`, and `i` is `j` moved down by `n` blocks. -/
theorem pay0_block (x0 : Vec Ideal S5000x128 .f32) (x1 : Vec Ideal S128x128 .f32)
    (A : S50000x128.Idx → EReal) (B : S128x128.Idx → EReal) (n : Nat) (hn : n < 10)
    (hx0 : ∀ (p : Fin 5000) (k : Fin 128), x0 (ix2 p k) = A (ix2 (⟨n * 5000 + p.val, by omega⟩ : Fin 50000) k))
    (hx1 : ∀ (k : Fin 128) (q : Fin 128), x1 (ix2 k q) = B (ix2 k q))
    (j : S5000x128.Idx) (i : S50000x128.Idx) (hi0 : (i 0).val = n * 5000 + (j 0).val) (hi1 : (i 1).val = (j 1).val) :
    k0_pay1 (F := Ideal) x0 x1 j = matProd A B i := by
  obtain ⟨p, q, rfl⟩ : ∃ (p : Fin 5000) (q : Fin 128), j = ix2 p q := ⟨j 0, j 1, eq_ix2 j⟩
  rw [idx_of_coords i (⟨n * 5000 + p.val, by omega⟩ : Fin 50000) q hi0 hi1, pay0_apply, matProd_apply]
  exact Finset.sum_congr rfl fun k _ => by rw [hx0, hx1]

/-- Region 1: the same for `(max (agg + bias) 0) · W`. -/
theorem pay1_block (x0 : Vec Ideal S5000x128 .f32) (x1 : Vec Ideal S1x128 .f32) (x2 : Vec Ideal S128x64 .f32)
    (A : S50000x128.Idx → EReal) (b : S1x128.Idx → EReal) (B : S128x64.Idx → EReal) (n : Nat) (hn : n < 10)
    (hx0 : ∀ (p : Fin 5000) (k : Fin 128), x0 (ix2 p k) = A (ix2 (⟨n * 5000 + p.val, by omega⟩ : Fin 50000) k))
    (hx1 : ∀ (k : Fin 128), x1 (ix2 (0 : Fin 1) k) = b (ix2 (0 : Fin 1) k))
    (hx2 : ∀ (k : Fin 128) (q : Fin 64), x2 (ix2 k q) = B (ix2 k q))
    (j : S5000x64.Idx) (i : S50000x64.Idx) (hi0 : (i 0).val = n * 5000 + (j 0).val) (hi1 : (i 1).val = (j 1).val) :
    k1_pay1 (F := Ideal) x0 x1 x2 j = matProd (biasRelu zeroF A b) B i := by
  obtain ⟨p, q, rfl⟩ : ∃ (p : Fin 5000) (q : Fin 64), j = ix2 p q := ⟨j 0, j 1, eq_ix2 j⟩
  rw [idx_of_coords i (⟨n * 5000 + p.val, by omega⟩ : Fin 50000) q hi0 hi1, pay1_apply, matProd_apply]
  exact Finset.sum_congr rfl fun k _ => by rw [biasRelu_apply, hx0, hx1, hx2]

/-- Regions 2 and 3: the same for the logistic function of `agg + bias`. -/
theorem pay2_block (x0 : Vec Ideal S5000x64 .f32) (x1 : Vec Ideal S1x64 .f32)
    (A : S50000x64.Idx → EReal) (b : S1x64.Idx → EReal) (n : Nat) (hn : n < 10)
    (hx0 : ∀ (p : Fin 5000) (q : Fin 64), x0 (ix2 p q) = A (ix2 (⟨n * 5000 + p.val, by omega⟩ : Fin 50000) q))
    (hx1 : ∀ (q : Fin 64), x1 (ix2 (0 : Fin 1) q) = b (ix2 (0 : Fin 1) q))
    (j : S5000x64.Idx) (i : S50000x64.Idx) (hi0 : (i 0).val = n * 5000 + (j 0).val) (hi1 : (i 1).val = (j 1).val) :
    k2_pay1 (F := Ideal) x0 x1 j = biasLogistic A b i := by
  obtain ⟨p, q, rfl⟩ : ∃ (p : Fin 5000) (q : Fin 64), j = ix2 p q := ⟨j 0, j 1, eq_ix2 j⟩
  rw [idx_of_coords i (⟨n * 5000 + p.val, by omega⟩ : Fin 50000) q hi0 hi1, pay2_apply, biasLogistic_apply, hx0, hx1]

theorem pay3_block (x0 : Vec Ideal S5000x64 .f32) (x1 : Vec Ideal S1x64 .f32)
    (A : S50000x64.Idx → EReal) (b : S1x64.Idx → EReal) (n : Nat) (hn : n < 10)
    (hx0 : ∀ (p : Fin 5000) (q : Fin 64), x0 (ix2 p q) = A (ix2 (⟨n * 5000 + p.val, by omega⟩ : Fin 50000) q))
    (hx1 : ∀ (q : Fin 64), x1 (ix2 (0 : Fin 1) q) = b (ix2 (0 : Fin 1) q))
    (j : S5000x64.Idx) (i : S50000x64.Idx) (hi0 : (i 0).val = n * 5000 + (j 0).val) (hi1 : (i 1).val = (j 1).val) :
    k3_pay1 (F := Ideal) x0 x1 j = biasLogistic A b i := by
  obtain ⟨p, q, rfl⟩ : ∃ (p : Fin 5000) (q : Fin 64), j = ix2 p q := ⟨j 0, j 1, eq_ix2 j⟩
  rw [idx_of_coords i (⟨n * 5000 + p.val, by omega⟩ : Fin 50000) q hi0 hi1, pay3_apply, biasLogistic_apply, hx0, hx1]

end Cert.KernelIdeal.Payload

end
-- ==== Proof.Region0.lean ====
/-
  Region 0 (the first matrix product): what its output array holds when the region ends.

  The grid has ten points. At point `t` the first window's block is rows `t·5000 … t·5000 + 4999` of the left array (all
  128 columns), the second window's block is the whole 128×128 weight array, and the output window's block is the
  same ten-way split of the 50000×128 result. The body stores the product of the two blocks, so what point `t` writes
  back is the block `t` of the whole product `A · B`; the ten blocks cover every row, so the array ends as `A · B`.
  Everything is stated at the buffer contents `V` the region is entered with, whatever they are.
-/
import proofs.«175650_j5995774346009_1_alg».proof.Proof.Gen.KernelIdeal.Frame
import proofs.«175650_j5995774346009_1_alg».proof.Proof.Payload
import Idealize.ShloMosaic.Lib.Pipeline.Value

set_option maxRecDepth 16384

noncomputable section

namespace Cert.KernelIdeal.Region0

open Cert.KernelIdeal Cert.KernelIdeal.Gen Cert.KernelIdeal.Payload Cert.Bridge
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row blocks of input and output move together with the point, every other
    block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two input arrays as the region finds them. -/
theorem flushed_eq (c : Dev nD) (t : Fin cfg0.N) :
    (dat0 (F := Ideal) V c).flushed 2 t
      = ((cfg0.win 2).blk t).view.read (Elt Ideal) (matProd (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  have ht : t.val < 10 := by
    have h := t.isLt
    have hN : cfg0.N = 10 := N_0
    omega
  funext j
  show k0_pay1 (F := Ideal) (iblk0 V c 0 t) (iblk0 V c 1 t) j
      = matProd (V c main_arg0) (V c main_arg3) (((cfg0.win 2).blk t).view.emb j)
  refine pay0_block (iblk0 V c 0 t) (iblk0 V c 1 t) (V c main_arg0) (V c main_arg3) t.val ht ?_ ?_ j _ ?_ ?_
  · intro p k
    show V c main_arg0 (((cfg0.win 0).blk t).view.emb (ix2 p k)) = V c main_arg0 _
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · intro k q
    show V c main_arg3 (((cfg0.win 1).blk t).view.emb (ix2 k q)) = V c main_arg3 _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · show win0_2.index t (0 : Fin 2) * 5000 + 1 * (j 0).val = t.val * 5000 + (j 0).val; omega
  · show win0_2.index t (1 : Fin 2) * 128 + 1 * (j 1).val = (j 1).val; omega

/-- An index of the result array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v20).slice (win0_2.rect t)).set ↔ _
  rw [View.set_slice_whole, Rect.mem_set_unit]
  exact Iff.rfl

/-- Every index of the result array is in the block of the point its row falls in. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have hlt : (i 0).val / 5000 < cfg0.N := by rw [hN]; omega
  obtain ⟨e0, e1, e2, e3, e4, e5⟩ := idx_facts ⟨(i 0).val / 5000, hlt⟩
  refine ⟨⟨(i 0).val / 5000, hlt⟩, flush0_2 _, ?_⟩
  rw [mem_blk]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ (1 : Fin 2) * 128 ≤ (i 1).val
      ∧ (i 1).val < win0_2.index ⟨(i 0).val / 5000, hlt⟩ (1 : Fin 2) * 128 + 128
    rw [e5]; omega

/-- The result array when the region ends: the product of the two input arrays as the region finds them. -/
theorem final (c : Dev nD) :
    (dat0 (F := Ideal) V c).arrAt 2 cfg0.N = matProd (V c main_arg0) (V c main_arg3) :=
  (dat0 (F := Ideal) V c).arrAt_eq_of_cover 2 (matProd (V c main_arg0) (V c main_arg3)) (fun t _ => flushed_eq V c t) cover

end Cert.KernelIdeal.Region0

end
-- ==== Proof.Region1.lean ====
/-
  Region 1 (bias, rectifier, second matrix product): what its output array holds when the region ends.

  At grid point `t` the first window's block is rows `t·5000 … t·5000 + 4999` of the aggregated array (all 128 columns);
  the bias row (1×128) and the 128×64 weights are the same whole arrays at every point; the output window's block is
  the same ten-way split of the 50000×64 result. The body adds the bias row to every row of its block, takes the maximum
  with zero and multiplies by the weights, so point `t` writes back block `t` of the product of the biased, rectified
  array by the weights; the ten blocks cover every row. Stated at the buffer contents `V` the region is entered with.
-/
import proofs.«175650_j5995774346009_1_alg».proof.Proof.Gen.KernelIdeal.Frame
import proofs.«175650_j5995774346009_1_alg».proof.Proof.Payload
import Idealize.ShloMosaic.Lib.Pipeline.Value

set_option maxRecDepth 16384

noncomputable section

namespace Cert.KernelIdeal.Region1

open Cert.KernelIdeal Cert.KernelIdeal.Gen Cert.KernelIdeal.Payload Cert.Bridge
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row blocks of input and output move together with the point, every other
    block index is zero. -/
theorem idx_facts : ∀ t : Fin cfg1.N,
    win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- What point `t` writes back is block `t` of the region's whole-array function of its input arrays as the region finds
    them. -/
theorem flushed_eq (c : Dev nD) (t : Fin cfg1.N) :
    (dat1 (F := Ideal) V c).flushed 3 t
      = ((cfg1.win 3).blk t).view.read (Elt Ideal) (matProd (biasRelu zeroF (V c main_v33) (V c main_v34)) (V c main_arg5)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x64) hz]
  obtain ⟨e0, e1, e2, e3, e4, e5, e6, e7⟩ := idx_facts t
  have ht : t.val < 10 := by
    have h := t.isLt
    have hN : cfg1.N = 10 := N_1
    omega
  funext j
  show k1_pay1 (F := Ideal) (iblk1 V c 0 t) (iblk1 V c 1 t) (iblk1 V c 2 t) j
      = matProd (biasRelu zeroF (V c main_v33) (V c main_v34)) (V c main_arg5) (((cfg1.win 3).blk t).view.emb j)
  refine pay1_block (iblk1 V c 0 t) (iblk1 V c 1 t) (iblk1 V c 2 t) (V c main_v33) (V c main_v34) (V c main_arg5) t.val ht ?_ ?_ ?_ j _ ?_ ?_
  · intro p k
    show V c main_v33 (((cfg1.win 0).blk t).view.emb (ix2 p k)) = V c main_v33 _
    refine congrArg (V c main_v33) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · intro k
    show V c main_v34 (((cfg1.win 1).blk t).view.emb (ix2 (0 : Fin 1) k)) = V c main_v34 _
    refine congrArg (V c main_v34) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  · intro k q
    show V c main_arg5 (((cfg1.win 2).blk t).view.emb (ix2 k q)) = V c main_arg5 _
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 64 + 1 * q.val = q.val; omega
  · show win1_3.index t (0 : Fin 2) * 5000 + 1 * (j 0).val = t.val * 5000 + (j 0).val; omega
  · show win1_3.index t (1 : Fin 2) * 64 + 1 * (j 1).val = (j 1).val; omega

/-- An index of the result array is in point `t`'s block iff each coordinate is in the block's range on its axis. -/
theorem mem_blk (t : Fin cfg1.N) (i : S50000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v35).slice (win1_3.rect t)).set ↔ _
  rw [View.set_slice_whole, Rect.mem_set_unit]
  exact Iff.rfl

/-- Every index of the result array is in the block of the point its row falls in. -/
theorem cover (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 10 := N_1
  have hlt : (i 0).val / 5000 < cfg1.N := by rw [hN]; omega
  obtain ⟨e0, e1, e2, e3, e4, e5, e6, e7⟩ := idx_facts ⟨(i 0).val / 5000, hlt⟩
  refine ⟨⟨(i 0).val / 5000, hlt⟩, flush1_3 _, ?_⟩
  rw [mem_blk]
  intro a
  match a with
  | ⟨0, _⟩ =>
    show win1_3.index ⟨(i 0).val / 5000, hlt⟩ (0 : Fin 2) * 5000 ≤ (i 0).val
      ∧ (i 0).val < win1_3.index ⟨(i 0).val / 5000, hlt⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, hlt⟩ (1 : Fin 2) * 64 ≤ (i 1).val
      ∧ (i 1).val < win1_3.index ⟨(i 0).val / 5000, hlt⟩ (1 : Fin 2) * 64 + 64
    rw [e7]; omega

/-- The result array when the region ends: the region's whole-array function of its input arrays as the region finds them. -/
theorem final (c : Dev nD) :
    (dat1 (F := Ideal) V c).arrAt 3 cfg1.N = matProd (biasRelu zeroF (V c main_v33) (V c main_v34)) (V c main_arg5) :=
  (dat1 (F := Ideal) V c).arrAt_eq_of_cover 3 (matProd (biasRelu zeroF (V c main_v33) (V c main_v34)) (V c main_arg5)) (fun t _ => flushed_eq V c t) cover

end Cert.KernelIdeal.Region1

end
-- ==== Proof.Region2.lean ====
/-
  Region 2 (bias and sigmoid): what its output array holds when the region ends.

  At grid point `t` the first window's block is rows `t·5000 … t·5000 + 4999` of the input array (all 64 columns), the
  bias row (1×64) is the same whole array at every point, and the output window's block is the same ten-way split of
  the 50000×64 result. The body adds the bias row to every row of its block and applies the logistic function, so point
  `t` writes back block `t` of that function of the whole array; the ten blocks cover every row. Stated at the buffer
  contents `V` the region is entered with.
-/
import proofs.«175650_j5995774346009_1_alg».proof.Proof.Gen.KernelIdeal.Frame
import proofs.«175650_j5995774346009_1_alg».proof.Proof.Payload
import Idealize.ShloMosaic.Lib.Pipeline.Value

set_option maxRecDepth 16384

noncomputable section

namespace Cert.KernelIdeal.Region2

open Cert.KernelIdeal Cert.KernelIdeal.Gen Cert.KernelIdeal.Payload Cert.Bridge
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row blocks of input and output move together with the point, every other
    block index is zero. -/
theorem idx_facts : ∀ t : Fin cfg2.N,
    win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point `t` writes back is block `t` of the region's whole-array function of its input arrays as the region finds
    them. -/
theorem flushed_eq (c : Dev nD) (t : Fin cfg2.N) :
    (dat2 (F := Ideal) V c).flushed 2 t
      = ((cfg2.win 2).blk t).view.read (Elt Ideal) (biasLogistic (V c main_v48) (V c main_v49)) := by
  show (cfg2.win 2).cut (grid2.coords t) ((dat2 V c).after 2 t) = _
  rw [after2_2]
  unfold out2_2
  rw [View.canon_unit_zero hz]
  simp only [View.ld_unit_zero (S := S5000x64) hz, View.ld_unit_zero (S := S1x64) hz]
  obtain ⟨e0, e1, e2, e3, e4, e5⟩ := idx_facts t
  have ht : t.val < 10 := by
    have h := t.isLt
    have hN : cfg2.N = 10 := N_2
    omega
  funext j
  show k2_pay1 (F := Ideal) (iblk2 V c 0 t) (iblk2 V c 1 t) j
      = biasLogistic (V c main_v48) (V c main_v49) (((cfg2.win 2).blk t).view.emb j)
  refine pay2_block (iblk2 V c 0 t) (iblk2 V c 1 t) (V c main_v48) (V c main_v49) t.val ht ?_ ?_ j _ ?_ ?_
  · intro p k
    show V c main_v48 (((cfg2.win 0).blk t).view.emb (ix2 p k)) = V c main_v48 _
    refine congrArg (V c main_v48) (funext fun a => Fin.ext ?_)
    match a with
    | ⟨0, _⟩ => show win2_0.index t (0 : Fin 2) * 5000 + 1 * p.val = t.val * 5000 + p.val; omega
    | ⟨1, _⟩ => show win2_0.index t (1 : Fin 2) * 64 + 1 * k.val = k.val; omega
  · intro k
    show V c main_v49 (((cfg2.win 1).blk t).view.emb (ix2 (0 : Fin 1) k)) = V c main_v49 _
    refine congrArg (V c main_v49) (funext fun a => Fin.ext ?_)
    match a with
    | ⟨0, _⟩ => show win2_1.index t (0 : Fin 2) * 1 + 1 * 0 = 0; omega
    | ⟨1, _⟩ => show win2_1.index t (1 : Fin 2) * 64 + 1 * k.val = k.val; omega
  · show win2_2.index t (0 : Fin 2) * 5000 + 1 * (j 0).val = t.val * 5000 + (j 0).val; omega
  · show win2_2.index t (1 : Fin 2) * 64 + 1 * (j 1).val = (j 1).val; omega

/-- An index of the result array is in point `t`'s block iff each coordinate is in the block's range on its axis. -/
theorem mem_blk (t : Fin cfg2.N) (i : S50000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v50).slice (win2_2.rect t)).set ↔ _
  rw [View.set_slice_whole, Rect.mem_set_unit]
  exact Iff.rfl

/-- Every index of the result array is in the block of the point its row falls in. -/
theorem cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 10 := N_2
  have hlt : (i 0).val / 5000 < cfg2.N := by rw [hN]; omega
  obtain ⟨e0, e1, e2, e3, e4, e5⟩ := idx_facts ⟨(i 0).val / 5000, hlt⟩
  refine ⟨⟨(i 0).val / 5000, hlt⟩, flush2_2 _, ?_⟩
  rw [mem_blk]
  intro a
  match a with
  | ⟨0, _⟩ =>
    show win2_2.index ⟨(i 0).val / 5000, hlt⟩ (0 : Fin 2) * 5000 ≤ (i 0).val
      ∧ (i 0).val < win2_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, hlt⟩ (1 : Fin 2) * 64 ≤ (i 1).val
      ∧ (i 1).val < win2_2.index ⟨(i 0).val / 5000, hlt⟩ (1 : Fin 2) * 64 + 64
    rw [e5]; omega

/-- The result array when the region ends: the region's whole-array function of its input arrays as the region finds them. -/
theorem final (c : Dev nD) :
    (dat2 (F := Ideal) V c).arrAt 2 cfg2.N = biasLogistic (V c main_v48) (V c main_v49) :=
  (dat2 (F := Ideal) V c).arrAt_eq_of_cover 2 (biasLogistic (V c main_v48) (V c main_v49)) (fun t _ => flushed_eq V c t) cover

end Cert.KernelIdeal.Region2

end
-- ==== Proof.Region3.lean ====
/-
  Region 3 (bias and sigmoid): what its output array holds when the region ends.

  At grid point `t` the first window's block is rows `t·5000 … t·5000 + 4999` of the input array (all 64 columns), the
  bias row (1×64) is the same whole array at every point, and the output window's block is the same ten-way split of
  the 50000×64 result. The body adds the bias row to every row of its block and applies the logistic function, so point
  `t` writes back block `t` of that function of the whole array; the ten blocks cover every row. Stated at the buffer
  contents `V` the region is entered with.
-/
import proofs.«175650_j5995774346009_1_alg».proof.Proof.Gen.KernelIdeal.Frame
import proofs.«175650_j5995774346009_1_alg».proof.Proof.Payload
import Idealize.ShloMosaic.Lib.Pipeline.Value

set_option maxRecDepth 16384

noncomputable section

namespace Cert.KernelIdeal.Region3

open Cert.KernelIdeal Cert.KernelIdeal.Gen Cert.KernelIdeal.Payload Cert.Bridge
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row blocks of input and output move together with the point, every other
    block index is zero. -/
theorem idx_facts : ∀ t : Fin cfg3.N,
    win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What point `t` writes back is block `t` of the region's whole-array function of its input arrays as the region finds
    them. -/
theorem flushed_eq (c : Dev nD) (t : Fin cfg3.N) :
    (dat3 (F := Ideal) V c).flushed 2 t
      = ((cfg3.win 2).blk t).view.read (Elt Ideal) (biasLogistic (V c main_v115) (V c main_v117)) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  obtain ⟨e0, e1, e2, e3, e4, e5⟩ := idx_facts t
  have ht : t.val < 10 := by
    have h := t.isLt
    have hN : cfg3.N = 10 := N_3
    omega
  funext j
  show k3_pay1 (F := Ideal) (iblk3 V c 0 t) (iblk3 V c 1 t) j
      = biasLogistic (V c main_v115) (V c main_v117) (((cfg3.win 2).blk t).view.emb j)
  refine pay3_block (iblk3 V c 0 t) (iblk3 V c 1 t) (V c main_v115) (V c main_v117) t.val ht ?_ ?_ j _ ?_ ?_
  · intro p k
    show V c main_v115 (((cfg3.win 0).blk t).view.emb (ix2 p k)) = V c main_v115 _
    refine congrArg (V c main_v115) (funext fun a => Fin.ext ?_)
    match a with
    | ⟨0, _⟩ => show win3_0.index t (0 : Fin 2) * 5000 + 1 * p.val = t.val * 5000 + p.val; omega
    | ⟨1, _⟩ => show win3_0.index t (1 : Fin 2) * 64 + 1 * k.val = k.val; omega
  · intro k
    show V c main_v117 (((cfg3.win 1).blk t).view.emb (ix2 (0 : Fin 1) k)) = V c main_v117 _
    refine congrArg (V c main_v117) (funext fun a => Fin.ext ?_)
    match a with
    | ⟨0, _⟩ => show win3_1.index t (0 : Fin 2) * 1 + 1 * 0 = 0; omega
    | ⟨1, _⟩ => show win3_1.index t (1 : Fin 2) * 64 + 1 * k.val = k.val; omega
  · show win3_2.index t (0 : Fin 2) * 5000 + 1 * (j 0).val = t.val * 5000 + (j 0).val; omega
  · show win3_2.index t (1 : Fin 2) * 64 + 1 * (j 1).val = (j 1).val; omega

/-- An index of the result array is in point `t`'s block iff each coordinate is in the block's range on its axis. -/
theorem mem_blk (t : Fin cfg3.N) (i : S50000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v118).slice (win3_2.rect t)).set ↔ _
  rw [View.set_slice_whole, Rect.mem_set_unit]
  exact Iff.rfl

/-- Every index of the result array is in the block of the point its row falls in. -/
theorem cover (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 10 := N_3
  have hlt : (i 0).val / 5000 < cfg3.N := by rw [hN]; omega
  obtain ⟨e0, e1, e2, e3, e4, e5⟩ := idx_facts ⟨(i 0).val / 5000, hlt⟩
  refine ⟨⟨(i 0).val / 5000, hlt⟩, flush3_2 _, ?_⟩
  rw [mem_blk]
  intro a
  match a with
  | ⟨0, _⟩ =>
    show win3_2.index ⟨(i 0).val / 5000, hlt⟩ (0 : Fin 2) * 5000 ≤ (i 0).val
      ∧ (i 0).val < win3_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, hlt⟩ (1 : Fin 2) * 64 ≤ (i 1).val
      ∧ (i 1).val < win3_2.index ⟨(i 0).val / 5000, hlt⟩ (1 : Fin 2) * 64 + 64
    rw [e5]; omega

/-- The result array when the region ends: the region's whole-array function of its input arrays as the region finds them. -/
theorem final (c : Dev nD) :
    (dat3 (F := Ideal) V c).arrAt 2 cfg3.N = biasLogistic (V c main_v115) (V c main_v117) :=
  (dat3 (F := Ideal) V c).arrAt_eq_of_cover 2 (biasLogistic (V c main_v115) (V c main_v117)) (fun t _ => flushed_eq V c t) cover

end Cert.KernelIdeal.Region3

end
-- ==== Proof.RefStages.lean ====
/-
  The reference's four dense stages are the whole-array functions of Spec.lean.

  Read index by index at the ideal instance:
    * its first `dot_general` is the product `x · w1`;
    * its second, of `max (agg + b1, 0)` with `w2`, is the product of (the bias row added to every row of `agg`, then
      the maximum with zero) by `w2` — the bias vector broadcast first to one row and then to every row reads, at
      `(a, k)`, its entry `k`;
    * its expansion `1 / (1 + exp (−(agg + b2)))` of the sigmoid is the logistic function of `agg + b2`: the word
      `0x3F800000` is the real number one, and the logistic function is by definition that quotient, at every
      extended real (so nothing here asks the operand to be finite);
    * the same expansion with no bias is the logistic function of `agg + 0`, for a row of zeros.
  A bias row is any 1×N array that reads, at `(0, k)`, the bias vector's entry `k` (`hb`): the kernel program reshapes the
  vector to one row, the reference broadcasts it, and both are such rows.
-/
import proofs.«175650_j5995774346009_1_alg».proof.Proof.Gen.ReferenceIdeal.Read
import proofs.«175650_j5995774346009_1_alg».proof.Proof.Spec
import Idealize.ShloMosaic.Lib.IdealHost
import Idealize.ShloMosaic.PureOps.Ideal.Laws

noncomputable section

open scoped BigOperators

namespace Cert.ReferenceIdeal.Stages

open Cert.ReferenceIdeal Cert.ReferenceIdeal.Read Cert.Bridge
open Idealize.ShloMosaic Idealize.ShloMosaic.ValueIdx

/-- The zero the reference's `relu` takes the maximum with. -/
abbrev zeroF : EReal := Ideal.ofBits .f32 0x00000000#32

/-- The host's expansion of the sigmoid, `1 / (1 + exp (−x))` with the literal ones, is the logistic function, at every
    extended real: the word `0x3F800000` is one, and the logistic function is that quotient by definition. -/
theorem sigmoid_expand (x : EReal) :
    FloatOps.hostDivf (F := Ideal) (φ := .f32) (FloatOps.ofBits .f32 0x3F800000#32)
      (FloatOps.addf (FloatOps.ofBits .f32 0x3F800000#32) (FloatOps.hostUnary .exp (FloatOps.hostNegf x))) = Ideal.logistic x := by
  show Ideal.div (Ideal.ofBits .f32 0x3F800000#32) (Ideal.ofBits .f32 0x3F800000#32 + Ideal.exp (-x)) = _
  rw [Ideal.ofBits_one_f32]
  rfl

/-- The first `dot_general` is the matrix product. -/
theorem v20_eq (x0 : (⟨S50000x128, .f32⟩ : BufTy).Contents (Elt Ideal)) (x3 : (⟨S128x128, .f32⟩ : BufTy).Contents (Elt Ideal)) :
    val_main_v20 (F := Ideal) x0 x3 = matProd x0 x3 := by
  funext i
  obtain ⟨a, b, rfl⟩ : ∃ (a : Fin 50000) (b : Fin 128), i = ix2 a b := ⟨i 0, i 1, eq_ix2 i⟩
  rw [val_main_v20_apply, matProd_apply]
  refine Finset.sum_congr rfl fun k _ => ?_
  have el : lidx_main_v20 (ix2 a b) k = ix2 a k := funext fun d => Fin.ext (by
    match d with
    | ⟨0, _⟩ => rfl
    | ⟨1, _⟩ => rfl)
  have er : ridx_main_v20 (ix2 a b) k = ix2 k b := funext fun d => Fin.ext (by
    match d with
    | ⟨0, _⟩ => rfl
    | ⟨1, _⟩ => rfl)
  rw [el, er]

/-- The second `dot_general`, of `max (agg + b1, 0)` with `w2`: the product of the biased, rectified `agg` by `w2`. -/
theorem v38_eq (x0 : (⟨S50000x128, .f32⟩ : BufTy).Contents (Elt Ideal)) (x2 : (⟨S800000, .f32⟩ : BufTy).Contents (Elt Ideal))
    (x3 : (⟨S128x128, .f32⟩ : BufTy).Contents (Elt Ideal)) (x4 : (⟨S128, .f32⟩ : BufTy).Contents (Elt Ideal))
    (x5 : (⟨S128x64, .f32⟩ : BufTy).Contents (Elt Ideal)) (x7 : (⟨S2x800000, .i32⟩ : BufTy).Contents (Elt Ideal))
    (brow : S1x128.Idx → EReal) (hb : ∀ k : Fin 128, brow (ix2 (0 : Fin 1) k) = x4 (ix1 k)) :
    val_main_v38 (F := Ideal) x0 x2 x3 x4 x5 x7
      = matProd (biasRelu zeroF (val_main_v33 (F := Ideal) x0 x2 x3 x7) brow) x5 := by
  funext i
  obtain ⟨a, b, rfl⟩ : ∃ (a : Fin 50000) (b : Fin 64), i = ix2 a b := ⟨i 0, i 1, eq_ix2 i⟩
  rw [val_main_v38_apply, matProd_apply]
  refine Finset.sum_congr rfl fun k _ => ?_
  have el : lidx_main_v38 (ix2 a b) k = ix2 a k := funext fun d => Fin.ext (by
    match d with
    | ⟨0, _⟩ => rfl
    | ⟨1, _⟩ => rfl)
  have er : ridx_main_v38 (ix2 a b) k = ix2 k b := funext fun d => Fin.ext (by
    match d with
    | ⟨0, _⟩ => rfl
    | ⟨1, _⟩ => rfl)
  have eb : idx_main_v34 (idx_main_v35 (ix2 a k)) = ix1 k := funext fun d => Fin.ext (by
    match d with
    | ⟨0, _⟩ => rfl)
  rw [el, er, val_main_v37_apply, val_main_v36_apply, val_main_v35_apply, val_main_v34_apply, val_main_call1_v0_apply,
    val_main_call1_cst_apply, biasRelu_apply, hb, eb]
  rfl

/-- The reference's first sigmoid, `1 / (1 + exp (−(agg + b2)))`: the logistic function of the biased `agg`. -/
theorem v60_eq (x0 : (⟨S50000x128, .f32⟩ : BufTy).Contents (Elt Ideal)) (x2 : (⟨S800000, .f32⟩ : BufTy).Contents (Elt Ideal))
    (x3 : (⟨S128x128, .f32⟩ : BufTy).Contents (Elt Ideal)) (x4 : (⟨S128, .f32⟩ : BufTy).Contents (Elt Ideal))
    (x5 : (⟨S128x64, .f32⟩ : BufTy).Contents (Elt Ideal)) (x6 : (⟨S64, .f32⟩ : BufTy).Contents (Elt Ideal))
    (x7 : (⟨S2x800000, .i32⟩ : BufTy).Contents (Elt Ideal))
    (brow : S1x64.Idx → EReal) (hb : ∀ q : Fin 64, brow (ix2 (0 : Fin 1) q) = x6 (ix1 q)) :
    val_main_v60 (F := Ideal) x0 x2 x3 x4 x5 x6 x7
      = biasLogistic (val_main_v51 (F := Ideal) x0 x2 x3 x4 x5 x7) brow := by
  funext i
  obtain ⟨a, b, rfl⟩ : ∃ (a : Fin 50000) (b : Fin 64), i = ix2 a b := ⟨i 0, i 1, eq_ix2 i⟩
  have eb : idx_main_v52 (idx_main_v53 (ix2 a b)) = ix1 b := funext fun d => Fin.ext (by
    match d with
    | ⟨0, _⟩ => rfl)
  rw [val_main_v60_apply, val_main_v59_apply, val_main_cst_11_apply, val_main_v58_apply, val_main_v57_apply,
    val_main_cst_10_apply, val_main_v56_apply, val_main_v55_apply, val_main_v54_apply, val_main_v53_apply,
    val_main_v52_apply, biasLogistic_apply, hb, eb]
  generalize val_main_v51 (F := Ideal) x0 x2 x3 x4 x5 x7 (ix2 a b) = u
  exact sigmoid_expand (u + x6 (ix1 b))

/-- The reference's second sigmoid has no bias: the logistic function of `agg` plus a row of zeros. -/
theorem v131_eq (x1 : (⟨S50000x64, .f32⟩ : BufTy).Contents (Elt Ideal)) (x2 : (⟨S800000, .f32⟩ : BufTy).Contents (Elt Ideal))
    (x7 : (⟨S2x800000, .i32⟩ : BufTy).Contents (Elt Ideal))
    (brow : S1x64.Idx → EReal) (hb : ∀ q : Fin 64, brow (ix2 (0 : Fin 1) q) = 0) :
    val_main_v131 (F := Ideal) x1 x2 x7 = biasLogistic (val_main_v125 (F := Ideal) x1 x2 x7) brow := by
  funext i
  obtain ⟨a, b, rfl⟩ : ∃ (a : Fin 50000) (b : Fin 64), i = ix2 a b := ⟨i 0, i 1, eq_ix2 i⟩
  rw [val_main_v131_apply, val_main_v130_apply, val_main_cst_28_apply, val_main_v129_apply, val_main_v128_apply,
    val_main_cst_27_apply, val_main_v127_apply, val_main_v126_apply, biasLogistic_apply, hb, add_zero]
  generalize val_main_v125 (F := Ideal) x1 x2 x7 (ix2 a b) = u
  exact sigmoid_expand u

end Cert.ReferenceIdeal.Stages

end
-- ==== Proof.StretchA.lean ====
/-
  The host operations before the first kernel region, read one stretch at a time.

  Both programs begin with the same host operations on the edge list and the edge weights: the two rows of the edge
  index, the weighted degree of every node (a scatter-add of the weights by source node), its reciprocal where the
  degree is not zero and zero where it is, and the normalized weight of every edge (that reciprocal gathered at the
  edge's source node, times the edge's weight). Each lemma reads one result buffer after one stretch of operations
  from an arbitrary valuation `U` of the buffers, given what `U` holds at the buffers the stretch reads, and states it
  with the reference program's stage functions; a buffer the stretch does not write is kept.
  The outlined `where` is three plain operations (its typed references carry identity transports only).
-/
import proofs.«175650_j5995774346009_1_alg».proof.Proof.Gen.KernelIdeal.Launch
import proofs.«175650_j5995774346009_1_alg».proof.Proof.Gen.ReferenceIdeal.Read
import Idealize.ShloMosaic.Lib.StableHlo.Run

set_option maxRecDepth 16384

noncomputable section

namespace Cert.KernelIdeal.StretchA

open Cert.KernelIdeal Cert.KernelIdeal.Gen
open Idealize.ShloMosaic Idealize.ShloMosaic.TcCoe Idealize.SL.Sem Idealize.ShloMosaic.StableHlo

variable (U : Valuation τ sig (Elt Ideal))

/-! ## The first stretch: the edge index's rows, the degrees, the reciprocal -/

theorem a_v1 (y7 : (⟨S2x800000, .i32⟩ : BufTy).Contents (Elt Ideal)) (h7 : U (Proc.devRef .tc main_arg7) = y7) :
    StableHlo.after hostOps0 U (Proc.devRef .tc main_v1) = Cert.ReferenceIdeal.Read.val_main_v1 (F := Ideal) y7 := by
  after_results
  rw [h7]
  rfl

theorem a_v3 (y7 : (⟨S2x800000, .i32⟩ : BufTy).Contents (Elt Ideal)) (h7 : U (Proc.devRef .tc main_arg7) = y7) :
    StableHlo.after hostOps0 U (Proc.devRef .tc main_v3) = Cert.ReferenceIdeal.Read.val_main_v3 (F := Ideal) y7 := by
  after_results
  rw [h7]
  rfl

theorem a_v8 (y2 : (⟨S800000, .f32⟩ : BufTy).Contents (Elt Ideal)) (y7 : (⟨S2x800000, .i32⟩ : BufTy).Contents (Elt Ideal)) (h2 : U (Proc.devRef .tc main_arg2) = y2) (h7 : U (Proc.devRef .tc main_arg7) = y7) :
    StableHlo.after hostOps0 U (Proc.devRef .tc main_v8) = Cert.ReferenceIdeal.Read.val_main_v8 (F := Ideal) y2 y7 := by
  after_results
  rw [h2, h7]
  rfl

theorem a_v10 (y2 : (⟨S800000, .f32⟩ : BufTy).Contents (Elt Ideal)) (y7 : (⟨S2x800000, .i32⟩ : BufTy).Contents (Elt Ideal)) (h2 : U (Proc.devRef .tc main_arg2) = y2) (h7 : U (Proc.devRef .tc main_arg7) = y7) :
    StableHlo.after hostOps0 U (Proc.devRef .tc main_v10) = Cert.ReferenceIdeal.Read.val_main_v10 (F := Ideal) y2 y7 := by
  after_results
  rw [h2, h7]
  rfl

theorem a_cst2 : StableHlo.after hostOps0 U (Proc.devRef .tc main_cst_2) = Cert.ReferenceIdeal.Read.val_main_cst_2 (F := Ideal) := by
  after_results
  rfl

theorem a_keep_arg0 : StableHlo.after hostOps0 U (Proc.devRef .tc main_arg0) = U (Proc.devRef .tc main_arg0) := by
  after_results

theorem a_keep_arg1 : StableHlo.after hostOps0 U (Proc.devRef .tc main_arg1) = U (Proc.devRef .tc main_arg1) := by
  after_results

theorem a_keep_arg2 : StableHlo.after hostOps0 U (Proc.devRef .tc main_arg2) = U (Proc.devRef .tc main_arg2) := by
  after_results

theorem a_keep_arg3 : StableHlo.after hostOps0 U (Proc.devRef .tc main_arg3) = U (Proc.devRef .tc main_arg3) := by
  after_results

theorem a_keep_arg4 : StableHlo.after hostOps0 U (Proc.devRef .tc main_arg4) = U (Proc.devRef .tc main_arg4) := by
  after_results

theorem a_keep_arg5 : StableHlo.after hostOps0 U (Proc.devRef .tc main_arg5) = U (Proc.devRef .tc main_arg5) := by
  after_results

theorem a_keep_arg6 : StableHlo.after hostOps0 U (Proc.devRef .tc main_arg6) = U (Proc.devRef .tc main_arg6) := by
  after_results

/-! ## The outlined `where`: three plain operations -/

/-- The three operations of the outlined `where`, over the plain builders. -/
abbrev whereOps : List (HloOp τ sig (Elt Ideal)) :=
  [ StableHlo.unary main_cst_2 main_call0_v0 (id : (⟨S_, .f32⟩ : BufTy).Contents (Elt Ideal) → (⟨S_, .f32⟩ : BufTy).Contents (Elt Ideal)),
    StableHlo.unary main_call0_v0 main_call0_v1 (broadcastInDim S50000 ![] bcast_S_S50000 : (⟨S_, .f32⟩ : BufTy).Contents (Elt Ideal) → (⟨S50000, .f32⟩ : BufTy).Contents (Elt Ideal)),
    StableHlo.ternary main_v8 main_call0_v1 main_v10 main_v11 (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) ]

set_option maxHeartbeats 400000 in
/-- The printed stretch is those three operations: a typed reference's transports are the identity at a literal
    reference. -/
theorem whereOps_eq : (hostOps0_1 : List (HloOp τ sig (Elt Ideal))) = whereOps := rfl

theorem b_v11 (y2 : (⟨S800000, .f32⟩ : BufTy).Contents (Elt Ideal)) (y7 : (⟨S2x800000, .i32⟩ : BufTy).Contents (Elt Ideal)) (h8 : U (Proc.devRef .tc main_v8) = Cert.ReferenceIdeal.Read.val_main_v8 (F := Ideal) y2 y7) (h10 : U (Proc.devRef .tc main_v10) = Cert.ReferenceIdeal.Read.val_main_v10 (F := Ideal) y2 y7)
    (hc : U (Proc.devRef .tc main_cst_2) = Cert.ReferenceIdeal.Read.val_main_cst_2 (F := Ideal)) :
    StableHlo.after hostOps0_1 U (Proc.devRef .tc main_v11) = Cert.ReferenceIdeal.Read.val_main_v11 (F := Ideal) y2 y7 := by
  rw [whereOps_eq]
  after_results
  rw [h8, h10, hc]
  rfl

theorem b_keep_v1 : StableHlo.after hostOps0_1 U (Proc.devRef .tc main_v1) = U (Proc.devRef .tc main_v1) := by
  rw [whereOps_eq]
  after_results

theorem b_keep_v3 : StableHlo.after hostOps0_1 U (Proc.devRef .tc main_v3) = U (Proc.devRef .tc main_v3) := by
  rw [whereOps_eq]
  after_results

theorem b_keep_arg0 : StableHlo.after hostOps0_1 U (Proc.devRef .tc main_arg0) = U (Proc.devRef .tc main_arg0) := by
  rw [whereOps_eq]
  after_results

theorem b_keep_arg1 : StableHlo.after hostOps0_1 U (Proc.devRef .tc main_arg1) = U (Proc.devRef .tc main_arg1) := by
  rw [whereOps_eq]
  after_results

theorem b_keep_arg2 : StableHlo.after hostOps0_1 U (Proc.devRef .tc main_arg2) = U (Proc.devRef .tc main_arg2) := by
  rw [whereOps_eq]
  after_results

theorem b_keep_arg3 : StableHlo.after hostOps0_1 U (Proc.devRef .tc main_arg3) = U (Proc.devRef .tc main_arg3) := by
  rw [whereOps_eq]
  after_results

theorem b_keep_arg4 : StableHlo.after hostOps0_1 U (Proc.devRef .tc main_arg4) = U (Proc.devRef .tc main_arg4) := by
  rw [whereOps_eq]
  after_results

theorem b_keep_arg5 : StableHlo.after hostOps0_1 U (Proc.devRef .tc main_arg5) = U (Proc.devRef .tc main_arg5) := by
  rw [whereOps_eq]
  after_results

theorem b_keep_arg6 : StableHlo.after hostOps0_1 U (Proc.devRef .tc main_arg6) = U (Proc.devRef .tc main_arg6) := by
  rw [whereOps_eq]
  after_results

/-! ## The third stretch: the normalized edge weights -/

theorem c_v19 (y2 : (⟨S800000, .f32⟩ : BufTy).Contents (Elt Ideal)) (y7 : (⟨S2x800000, .i32⟩ : BufTy).Contents (Elt Ideal)) (h11 : U (Proc.devRef .tc main_v11) = Cert.ReferenceIdeal.Read.val_main_v11 (F := Ideal) y2 y7) (h1 : U (Proc.devRef .tc main_v1) = Cert.ReferenceIdeal.Read.val_main_v1 (F := Ideal) y7) (h2 : U (Proc.devRef .tc main_arg2) = y2) :
    StableHlo.after hostOps0_2 U (Proc.devRef .tc main_v19) = Cert.ReferenceIdeal.Read.val_main_v19 (F := Ideal) y2 y7 := by
  after_results
  rw [h11, h1, h2]
  rfl

theorem c_keep_v1 : StableHlo.after hostOps0_2 U (Proc.devRef .tc main_v1) = U (Proc.devRef .tc main_v1) := by
  after_results

theorem c_keep_v3 : StableHlo.after hostOps0_2 U (Proc.devRef .tc main_v3) = U (Proc.devRef .tc main_v3) := by
  after_results

theorem c_keep_arg0 : StableHlo.after hostOps0_2 U (Proc.devRef .tc main_arg0) = U (Proc.devRef .tc main_arg0) := by
  after_results

theorem c_keep_arg1 : StableHlo.after hostOps0_2 U (Proc.devRef .tc main_arg1) = U (Proc.devRef .tc main_arg1) := by
  after_results

theorem c_keep_arg3 : StableHlo.after hostOps0_2 U (Proc.devRef .tc main_arg3) = U (Proc.devRef .tc main_arg3) := by
  after_results

theorem c_keep_arg4 : StableHlo.after hostOps0_2 U (Proc.devRef .tc main_arg4) = U (Proc.devRef .tc main_arg4) := by
  after_results

theorem c_keep_arg5 : StableHlo.after hostOps0_2 U (Proc.devRef .tc main_arg5) = U (Proc.devRef .tc main_arg5) := by
  after_results

theorem c_keep_arg6 : StableHlo.after hostOps0_2 U (Proc.devRef .tc main_arg6) = U (Proc.devRef .tc main_arg6) := by
  after_results

end Cert.KernelIdeal.StretchA

end
-- ==== Proof.StretchB.lean ====
/-
  The host operations between the kernel regions: one sparse aggregation each.

  After the first region, and again after the second, both programs aggregate the region's result over the graph: the
  rows of it gathered at every edge's target node (an index below zero wrapped by the node count first), each scaled by
  the edge's normalized weight, and scatter-added into a zero array by the edge's source node. The kernel program then
  reshapes the next bias vector to one row. Each lemma reads one result buffer after the stretch from an arbitrary
  valuation `U`, given what `U` holds at the buffers the stretch reads, with the reference's stage functions; a
  reshaped vector read at `(0, k)` is the vector's entry `k`.
-/
import proofs.«175650_j5995774346009_1_alg».proof.Proof.Gen.KernelIdeal.Launch
import proofs.«175650_j5995774346009_1_alg».proof.Proof.Gen.ReferenceIdeal.Read
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.StretchB

open Cert.KernelIdeal Cert.KernelIdeal.Gen
open Idealize.ShloMosaic Idealize.ShloMosaic.TcCoe Idealize.ShloMosaic.ValueIdx Idealize.SL.Sem Idealize.ShloMosaic.StableHlo

variable (U : Valuation τ sig (Elt Ideal))

/-- A vector reshaped to one row reads, at `(0, k)`, the vector's entry `k`. -/
theorem row_of_vec {n : Nat} (v : (⟨1, ![n]⟩ : Shape).Idx → EReal) (h : (⟨1, ![n]⟩ : Shape).ShapeCasts ⟨2, ![1, n]⟩) (k : Fin n) :
    shapeCast ⟨2, ![1, n]⟩ v h (ix2 (0 : Fin 1) k) = v (ix1 k) :=
  shapeCast_apply v h (ix2 (0 : Fin 1) k) (ix1 k) (by
    rw [Shape.rowMajor_val_one, Shape.rowMajor_val_two]
    show k.val = 0 * n + k.val
    omega)

/-! ## After region 0: the aggregation of the first product, and the first bias row -/

set_option maxHeartbeats 2000000 in
theorem d_v33 (y0 : (⟨S50000x128, .f32⟩ : BufTy).Contents (Elt Ideal)) (y2 : (⟨S800000, .f32⟩ : BufTy).Contents (Elt Ideal)) (y3 : (⟨S128x128, .f32⟩ : BufTy).Contents (Elt Ideal)) (y7 : (⟨S2x800000, .i32⟩ : BufTy).Contents (Elt Ideal)) (h20 : U (Proc.devRef .tc main_v20) = Cert.ReferenceIdeal.Read.val_main_v20 (F := Ideal) y0 y3) (h19 : U (Proc.devRef .tc main_v19) = Cert.ReferenceIdeal.Read.val_main_v19 (F := Ideal) y2 y7)
    (h1 : U (Proc.devRef .tc main_v1) = Cert.ReferenceIdeal.Read.val_main_v1 (F := Ideal) y7) (h3 : U (Proc.devRef .tc main_v3) = Cert.ReferenceIdeal.Read.val_main_v3 (F := Ideal) y7) :
    StableHlo.after hostOps1 U (Proc.devRef .tc main_v33) = Cert.ReferenceIdeal.Read.val_main_v33 (F := Ideal) y0 y2 y3 y7 := by
  after_results_simp
  rw [h20, h19, h1, h3]
  rfl

theorem d_v34 (y4 : (⟨S128, .f32⟩ : BufTy).Contents (Elt Ideal)) (h4 : U (Proc.devRef .tc main_arg4) = y4) :
    StableHlo.after hostOps1 U (Proc.devRef .tc main_v34) = shapeCast S1x128 y4 shapeCasts_S128_S1x128 := by
  after_results
  rw [h4]
  rfl

theorem d_keep_v1 : StableHlo.after hostOps1 U (Proc.devRef .tc main_v1) = U (Proc.devRef .tc main_v1) := by
  after_results

theorem d_keep_v3 : StableHlo.after hostOps1 U (Proc.devRef .tc main_v3) = U (Proc.devRef .tc main_v3) := by
  after_results

theorem d_keep_v19 : StableHlo.after hostOps1 U (Proc.devRef .tc main_v19) = U (Proc.devRef .tc main_v19) := by
  after_results

theorem d_keep_arg1 : StableHlo.after hostOps1 U (Proc.devRef .tc main_arg1) = U (Proc.devRef .tc main_arg1) := by
  after_results

theorem d_keep_arg5 : StableHlo.after hostOps1 U (Proc.devRef .tc main_arg5) = U (Proc.devRef .tc main_arg5) := by
  after_results

theorem d_keep_arg6 : StableHlo.after hostOps1 U (Proc.devRef .tc main_arg6) = U (Proc.devRef .tc main_arg6) := by
  after_results

/-! ## After region 1: the aggregation of the second product, and the second bias row -/

set_option maxHeartbeats 2000000 in
theorem e_v48 (y0 : (⟨S50000x128, .f32⟩ : BufTy).Contents (Elt Ideal)) (y2 : (⟨S800000, .f32⟩ : BufTy).Contents (Elt Ideal)) (y3 : (⟨S128x128, .f32⟩ : BufTy).Contents (Elt Ideal)) (y4 : (⟨S128, .f32⟩ : BufTy).Contents (Elt Ideal)) (y5 : (⟨S128x64, .f32⟩ : BufTy).Contents (Elt Ideal)) (y7 : (⟨S2x800000, .i32⟩ : BufTy).Contents (Elt Ideal)) (h35 : U (Proc.devRef .tc main_v35) = Cert.ReferenceIdeal.Read.val_main_v38 (F := Ideal) y0 y2 y3 y4 y5 y7) (h19 : U (Proc.devRef .tc main_v19) = Cert.ReferenceIdeal.Read.val_main_v19 (F := Ideal) y2 y7)
    (h1 : U (Proc.devRef .tc main_v1) = Cert.ReferenceIdeal.Read.val_main_v1 (F := Ideal) y7) (h3 : U (Proc.devRef .tc main_v3) = Cert.ReferenceIdeal.Read.val_main_v3 (F := Ideal) y7) :
    StableHlo.after hostOps2 U (Proc.devRef .tc main_v48) = Cert.ReferenceIdeal.Read.val_main_v51 (F := Ideal) y0 y2 y3 y4 y5 y7 := by
  after_results_simp
  rw [h35, h19, h1, h3]
  rfl

theorem e_v49 (y6 : (⟨S64, .f32⟩ : BufTy).Contents (Elt Ideal)) (h6 : U (Proc.devRef .tc main_arg6) = y6) :
    StableHlo.after hostOps2 U (Proc.devRef .tc main_v49) = shapeCast S1x64 y6 shapeCasts_S64_S1x64 := by
  after_results
  rw [h6]
  rfl

theorem e_keep_v1 : StableHlo.after hostOps2 U (Proc.devRef .tc main_v1) = U (Proc.devRef .tc main_v1) := by
  after_results

theorem e_keep_v3 : StableHlo.after hostOps2 U (Proc.devRef .tc main_v3) = U (Proc.devRef .tc main_v3) := by
  after_results

theorem e_keep_v19 : StableHlo.after hostOps2 U (Proc.devRef .tc main_v19) = U (Proc.devRef .tc main_v19) := by
  after_results

theorem e_keep_arg1 : StableHlo.after hostOps2 U (Proc.devRef .tc main_arg1) = U (Proc.devRef .tc main_arg1) := by
  after_results

end Cert.KernelIdeal.StretchB

end
-- ==== Proof.StretchC.lean ====
/-
  The host operations before the last kernel region: label propagation.

  Both programs aggregate the soft labels over the graph five times, each time as after the first two regions (gather
  at the target nodes, scale by the normalized edge weights, scatter-add by source node). The kernel program then
  builds a row of zeros for the last region's bias. The lemmas read the fifth aggregation and that row after the
  stretch from an arbitrary valuation `U`, given what `U` holds at the buffers the stretch reads, with the reference's
  stage functions; the first sigmoid's result, which the stretch does not write, is kept.
-/
import proofs.«175650_j5995774346009_1_alg».proof.Proof.Gen.KernelIdeal.Launch
import proofs.«175650_j5995774346009_1_alg».proof.Proof.Gen.ReferenceIdeal.Read
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.StretchC

open Cert.KernelIdeal Cert.KernelIdeal.Gen
open Idealize.ShloMosaic Idealize.ShloMosaic.TcCoe Idealize.ShloMosaic.ValueIdx Idealize.SL.Sem Idealize.ShloMosaic.StableHlo

variable (U : Valuation τ sig (Elt Ideal))

set_option maxHeartbeats 4000000 in
theorem f_v115 (y1 : (⟨S50000x64, .f32⟩ : BufTy).Contents (Elt Ideal)) (y2 : (⟨S800000, .f32⟩ : BufTy).Contents (Elt Ideal)) (y7 : (⟨S2x800000, .i32⟩ : BufTy).Contents (Elt Ideal)) (h1a : U (Proc.devRef .tc main_arg1) = y1) (h19 : U (Proc.devRef .tc main_v19) = Cert.ReferenceIdeal.Read.val_main_v19 (F := Ideal) y2 y7)
    (h1 : U (Proc.devRef .tc main_v1) = Cert.ReferenceIdeal.Read.val_main_v1 (F := Ideal) y7) (h3 : U (Proc.devRef .tc main_v3) = Cert.ReferenceIdeal.Read.val_main_v3 (F := Ideal) y7) :
    StableHlo.after hostOps3 U (Proc.devRef .tc main_v115) = Cert.ReferenceIdeal.Read.val_main_v125 (F := Ideal) y1 y2 y7 := by
  after_results_simp
  rw [h1a, h19, h1, h3]
  rfl

set_option maxHeartbeats 4000000 in
theorem f_v117 :
    StableHlo.after hostOps3 U (Proc.devRef .tc main_v117)
      = shapeCast S1x64 (broadcastInDim S64 ![] bcast_S_S64 (constant (F := Ideal) S_ .f32 0x00000000#32)) shapeCasts_S64_S1x64 := by
  after_results_simp
  rfl

/-- The row of zeros reads zero everywhere. -/
theorem zero_row (q : Fin 64) :
    shapeCast S1x64 (broadcastInDim S64 ![] bcast_S_S64 (constant (F := Ideal) S_ .f32 0x00000000#32)) shapeCasts_S64_S1x64
      (ix2 (0 : Fin 1) q) = 0 := by
  rw [shapeCast_apply _ shapeCasts_S64_S1x64 (ix2 (0 : Fin 1) q) (ix1 q) (by
    rw [Shape.rowMajor_val_one, Shape.rowMajor_val_two]
    show q.val = 0 * 64 + q.val
    omega)]
  rw [broadcastInDim_apply _ bcast_S_S64 _ (ix1 q) ix0 (fun a => a.elim0)]
  exact Ideal.ofBits_zero_f32

set_option maxHeartbeats 4000000 in
theorem f_keep_v50 : StableHlo.after hostOps3 U (Proc.devRef .tc main_v50) = U (Proc.devRef .tc main_v50) := by
  after_results_simp

end Cert.KernelIdeal.StretchC

end
-- ==== Proof.Chain.lean ====
/-
  The idealized kernel program's buffers at every segment boundary, from the launch memory to the return.

  The generated frame module names the buffer contents at each boundary `W0 … W10`. This module reads them, boundary
  by boundary, at the few buffers the results depend on — the edge index's two rows, the normalized edge weights, each
  region's inputs and output, and the arguments still to be read — and states each with the reference program's stage
  functions of the launch contents `x0 … x7` of the eight arguments:
    * a stretch of host operations is the same operations as the reference's (StretchA, StretchB, StretchC);
    * a region leaves every buffer but its own arrays as it found them, and its output array is the whole-array function
      of its inputs (Region0 … Region3), which is the reference's dense stage (RefStages): the first product, the
      biased and rectified second product, and the two sigmoids — the last one with a row of zeros for its bias.
  The last two lemmas are the program's two results: the first sigmoid's array, untouched by what follows it, and
  the second's.
-/
import proofs.«175650_j5995774346009_1_alg».proof.Proof.Gen.KernelIdeal.Frame
import proofs.«175650_j5995774346009_1_alg».proof.Proof.Gen.ReferenceIdeal.Read
import proofs.«175650_j5995774346009_1_alg».proof.Proof.Spec
import proofs.«175650_j5995774346009_1_alg».proof.Proof.Region0
import proofs.«175650_j5995774346009_1_alg».proof.Proof.Region1
import proofs.«175650_j5995774346009_1_alg».proof.Proof.Region2
import proofs.«175650_j5995774346009_1_alg».proof.Proof.Region3
import proofs.«175650_j5995774346009_1_alg».proof.Proof.RefStages
import proofs.«175650_j5995774346009_1_alg».proof.Proof.StretchA
import proofs.«175650_j5995774346009_1_alg».proof.Proof.StretchB
import proofs.«175650_j5995774346009_1_alg».proof.Proof.StretchC

set_option maxRecDepth 16384

noncomputable section

namespace Cert.KernelIdeal.Chain

open Cert.KernelIdeal Cert.KernelIdeal.Gen Cert.KernelIdeal.StretchA Cert.KernelIdeal.StretchB Cert.KernelIdeal.StretchC
open Cert.Bridge
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## Before region 0 -/

theorem W1_v1 : W1 m ρ c (Proc.devRef .tc main_v1) = Cert.ReferenceIdeal.Read.val_main_v1 (F := Ideal) (m ((c.tc : Thread nD τ).loc main_arg7)) := a_v1 (W0 m ρ c) (m ((c.tc : Thread nD τ).loc main_arg7)) rfl
theorem W1_v3 : W1 m ρ c (Proc.devRef .tc main_v3) = Cert.ReferenceIdeal.Read.val_main_v3 (F := Ideal) (m ((c.tc : Thread nD τ).loc main_arg7)) := a_v3 (W0 m ρ c) (m ((c.tc : Thread nD τ).loc main_arg7)) rfl
theorem W1_v8 : W1 m ρ c (Proc.devRef .tc main_v8) = Cert.ReferenceIdeal.Read.val_main_v8 (F := Ideal) (m ((c.tc : Thread nD τ).loc main_arg2)) (m ((c.tc : Thread nD τ).loc main_arg7)) := a_v8 (W0 m ρ c) (m ((c.tc : Thread nD τ).loc main_arg2)) (m ((c.tc : Thread nD τ).loc main_arg7)) rfl rfl
theorem W1_v10 : W1 m ρ c (Proc.devRef .tc main_v10) = Cert.ReferenceIdeal.Read.val_main_v10 (F := Ideal) (m ((c.tc : Thread nD τ).loc main_arg2)) (m ((c.tc : Thread nD τ).loc main_arg7)) := a_v10 (W0 m ρ c) (m ((c.tc : Thread nD τ).loc main_arg2)) (m ((c.tc : Thread nD τ).loc main_arg7)) rfl rfl
theorem W1_cst2 : W1 m ρ c (Proc.devRef .tc main_cst_2) = Cert.ReferenceIdeal.Read.val_main_cst_2 (F := Ideal) := a_cst2 (W0 m ρ c)
theorem W1_arg0 : W1 m ρ c (Proc.devRef .tc main_arg0) = (m ((c.tc : Thread nD τ).loc main_arg0)) := a_keep_arg0 (W0 m ρ c)
theorem W1_arg1 : W1 m ρ c (Proc.devRef .tc main_arg1) = (m ((c.tc : Thread nD τ).loc main_arg1)) := a_keep_arg1 (W0 m ρ c)
theorem W1_arg2 : W1 m ρ c (Proc.devRef .tc main_arg2) = (m ((c.tc : Thread nD τ).loc main_arg2)) := a_keep_arg2 (W0 m ρ c)
theorem W1_arg3 : W1 m ρ c (Proc.devRef .tc main_arg3) = (m ((c.tc : Thread nD τ).loc main_arg3)) := a_keep_arg3 (W0 m ρ c)
theorem W1_arg4 : W1 m ρ c (Proc.devRef .tc main_arg4) = (m ((c.tc : Thread nD τ).loc main_arg4)) := a_keep_arg4 (W0 m ρ c)
theorem W1_arg5 : W1 m ρ c (Proc.devRef .tc main_arg5) = (m ((c.tc : Thread nD τ).loc main_arg5)) := a_keep_arg5 (W0 m ρ c)
theorem W1_arg6 : W1 m ρ c (Proc.devRef .tc main_arg6) = (m ((c.tc : Thread nD τ).loc main_arg6)) := a_keep_arg6 (W0 m ρ c)

theorem W2_v11 : W2 m ρ c (Proc.devRef .tc main_v11) = Cert.ReferenceIdeal.Read.val_main_v11 (F := Ideal) (m ((c.tc : Thread nD τ).loc main_arg2)) (m ((c.tc : Thread nD τ).loc main_arg7)) :=
  b_v11 (W1 m ρ c) (m ((c.tc : Thread nD τ).loc main_arg2)) (m ((c.tc : Thread nD τ).loc main_arg7)) (W1_v8 m ρ c) (W1_v10 m ρ c) (W1_cst2 m ρ c)
theorem W2_v1 : W2 m ρ c (Proc.devRef .tc main_v1) = Cert.ReferenceIdeal.Read.val_main_v1 (F := Ideal) (m ((c.tc : Thread nD τ).loc main_arg7)) :=
  (b_keep_v1 (W1 m ρ c)).trans (W1_v1 m ρ c)
theorem W2_v3 : W2 m ρ c (Proc.devRef .tc main_v3) = Cert.ReferenceIdeal.Read.val_main_v3 (F := Ideal) (m ((c.tc : Thread nD τ).loc main_arg7)) :=
  (b_keep_v3 (W1 m ρ c)).trans (W1_v3 m ρ c)
theorem W2_arg0 : W2 m ρ c (Proc.devRef .tc main_arg0) = (m ((c.tc : Thread nD τ).loc main_arg0)) :=
  (b_keep_arg0 (W1 m ρ c)).trans (W1_arg0 m ρ c)
theorem W2_arg1 : W2 m ρ c (Proc.devRef .tc main_arg1) = (m ((c.tc : Thread nD τ).loc main_arg1)) :=
  (b_keep_arg1 (W1 m ρ c)).trans (W1_arg1 m ρ c)
theorem W2_arg2 : W2 m ρ c (Proc.devRef .tc main_arg2) = (m ((c.tc : Thread nD τ).loc main_arg2)) :=
  (b_keep_arg2 (W1 m ρ c)).trans (W1_arg2 m ρ c)
theorem W2_arg3 : W2 m ρ c (Proc.devRef .tc main_arg3) = (m ((c.tc : Thread nD τ).loc main_arg3)) :=
  (b_keep_arg3 (W1 m ρ c)).trans (W1_arg3 m ρ c)
theorem W2_arg4 : W2 m ρ c (Proc.devRef .tc main_arg4) = (m ((c.tc : Thread nD τ).loc main_arg4)) :=
  (b_keep_arg4 (W1 m ρ c)).trans (W1_arg4 m ρ c)
theorem W2_arg5 : W2 m ρ c (Proc.devRef .tc main_arg5) = (m ((c.tc : Thread nD τ).loc main_arg5)) :=
  (b_keep_arg5 (W1 m ρ c)).trans (W1_arg5 m ρ c)
theorem W2_arg6 : W2 m ρ c (Proc.devRef .tc main_arg6) = (m ((c.tc : Thread nD τ).loc main_arg6)) :=
  (b_keep_arg6 (W1 m ρ c)).trans (W1_arg6 m ρ c)

theorem W3_v19 : W3 m ρ c (Proc.devRef .tc main_v19) = Cert.ReferenceIdeal.Read.val_main_v19 (F := Ideal) (m ((c.tc : Thread nD τ).loc main_arg2)) (m ((c.tc : Thread nD τ).loc main_arg7)) :=
  c_v19 (W2 m ρ c) (m ((c.tc : Thread nD τ).loc main_arg2)) (m ((c.tc : Thread nD τ).loc main_arg7)) (W2_v11 m ρ c) (W2_v1 m ρ c) (W2_arg2 m ρ c)
theorem W3_v1 : W3 m ρ c (Proc.devRef .tc main_v1) = Cert.ReferenceIdeal.Read.val_main_v1 (F := Ideal) (m ((c.tc : Thread nD τ).loc main_arg7)) :=
  (c_keep_v1 (W2 m ρ c)).trans (W2_v1 m ρ c)
theorem W3_v3 : W3 m ρ c (Proc.devRef .tc main_v3) = Cert.ReferenceIdeal.Read.val_main_v3 (F := Ideal) (m ((c.tc : Thread nD τ).loc main_arg7)) :=
  (c_keep_v3 (W2 m ρ c)).trans (W2_v3 m ρ c)
theorem W3_arg0 : W3 m ρ c (Proc.devRef .tc main_arg0) = (m ((c.tc : Thread nD τ).loc main_arg0)) :=
  (c_keep_arg0 (W2 m ρ c)).trans (W2_arg0 m ρ c)
theorem W3_arg1 : W3 m ρ c (Proc.devRef .tc main_arg1) = (m ((c.tc : Thread nD τ).loc main_arg1)) :=
  (c_keep_arg1 (W2 m ρ c)).trans (W2_arg1 m ρ c)
theorem W3_arg3 : W3 m ρ c (Proc.devRef .tc main_arg3) = (m ((c.tc : Thread nD τ).loc main_arg3)) :=
  (c_keep_arg3 (W2 m ρ c)).trans (W2_arg3 m ρ c)
theorem W3_arg4 : W3 m ρ c (Proc.devRef .tc main_arg4) = (m ((c.tc : Thread nD τ).loc main_arg4)) :=
  (c_keep_arg4 (W2 m ρ c)).trans (W2_arg4 m ρ c)
theorem W3_arg5 : W3 m ρ c (Proc.devRef .tc main_arg5) = (m ((c.tc : Thread nD τ).loc main_arg5)) :=
  (c_keep_arg5 (W2 m ρ c)).trans (W2_arg5 m ρ c)
theorem W3_arg6 : W3 m ρ c (Proc.devRef .tc main_arg6) = (m ((c.tc : Thread nD τ).loc main_arg6)) :=
  (c_keep_arg6 (W2 m ρ c)).trans (W2_arg6 m ρ c)

/-! ## Region 0: the first product -/

theorem W4_v20 : W4 m ρ c (Proc.devRef .tc main_v20) = Cert.ReferenceIdeal.Read.val_main_v20 (F := Ideal) (m ((c.tc : Thread nD τ).loc main_arg0)) (m ((c.tc : Thread nD τ).loc main_arg3)) := by
  rw [Cert.ReferenceIdeal.Stages.v20_eq]
  refine (W4_arr m ρ c 2).trans ((Region0.final (V3 m ρ) c).trans ?_)
  show matProd (W3 m ρ c (Proc.devRef .tc main_arg0)) (W3 m ρ c (Proc.devRef .tc main_arg3)) = _
  rw [W3_arg0, W3_arg3]
theorem W4_v19 : W4 m ρ c (Proc.devRef .tc main_v19) = Cert.ReferenceIdeal.Read.val_main_v19 (F := Ideal) (m ((c.tc : Thread nD τ).loc main_arg2)) (m ((c.tc : Thread nD τ).loc main_arg7)) :=
  (W4_of_ne m ρ c main_v19 (by decide)).trans (W3_v19 m ρ c)
theorem W4_v1 : W4 m ρ c (Proc.devRef .tc main_v1) = Cert.ReferenceIdeal.Read.val_main_v1 (F := Ideal) (m ((c.tc : Thread nD τ).loc main_arg7)) :=
  (W4_of_ne m ρ c main_v1 (by decide)).trans (W3_v1 m ρ c)
theorem W4_v3 : W4 m ρ c (Proc.devRef .tc main_v3) = Cert.ReferenceIdeal.Read.val_main_v3 (F := Ideal) (m ((c.tc : Thread nD τ).loc main_arg7)) :=
  (W4_of_ne m ρ c main_v3 (by decide)).trans (W3_v3 m ρ c)
theorem W4_arg1 : W4 m ρ c (Proc.devRef .tc main_arg1) = (m ((c.tc : Thread nD τ).loc main_arg1)) :=
  (W4_of_ne m ρ c main_arg1 (by decide)).trans (W3_arg1 m ρ c)
theorem W4_arg4 : W4 m ρ c (Proc.devRef .tc main_arg4) = (m ((c.tc : Thread nD τ).loc main_arg4)) :=
  (W4_of_ne m ρ c main_arg4 (by decide)).trans (W3_arg4 m ρ c)
theorem W4_arg5 : W4 m ρ c (Proc.devRef .tc main_arg5) = (m ((c.tc : Thread nD τ).loc main_arg5)) :=
  (W4_of_ne m ρ c main_arg5 (by decide)).trans (W3_arg5 m ρ c)
theorem W4_arg6 : W4 m ρ c (Proc.devRef .tc main_arg6) = (m ((c.tc : Thread nD τ).loc main_arg6)) :=
  (W4_of_ne m ρ c main_arg6 (by decide)).trans (W3_arg6 m ρ c)

/-! ## The first aggregation, and region 1: bias, rectifier, second product -/

theorem W5_v33 : W5 m ρ c (Proc.devRef .tc main_v33) = Cert.ReferenceIdeal.Read.val_main_v33 (F := Ideal) (m ((c.tc : Thread nD τ).loc main_arg0)) (m ((c.tc : Thread nD τ).loc main_arg2)) (m ((c.tc : Thread nD τ).loc main_arg3)) (m ((c.tc : Thread nD τ).loc main_arg7)) :=
  d_v33 (W4 m ρ c) (m ((c.tc : Thread nD τ).loc main_arg0)) (m ((c.tc : Thread nD τ).loc main_arg2)) (m ((c.tc : Thread nD τ).loc main_arg3)) (m ((c.tc : Thread nD τ).loc main_arg7)) (W4_v20 m ρ c) (W4_v19 m ρ c) (W4_v1 m ρ c) (W4_v3 m ρ c)
theorem W5_v34 : W5 m ρ c (Proc.devRef .tc main_v34) = shapeCast S1x128 (m ((c.tc : Thread nD τ).loc main_arg4)) shapeCasts_S128_S1x128 :=
  d_v34 (W4 m ρ c) (m ((c.tc : Thread nD τ).loc main_arg4)) (W4_arg4 m ρ c)
theorem W5_v19 : W5 m ρ c (Proc.devRef .tc main_v19) = Cert.ReferenceIdeal.Read.val_main_v19 (F := Ideal) (m ((c.tc : Thread nD τ).loc main_arg2)) (m ((c.tc : Thread nD τ).loc main_arg7)) :=
  (d_keep_v19 (W4 m ρ c)).trans (W4_v19 m ρ c)
theorem W5_v1 : W5 m ρ c (Proc.devRef .tc main_v1) = Cert.ReferenceIdeal.Read.val_main_v1 (F := Ideal) (m ((c.tc : Thread nD τ).loc main_arg7)) :=
  (d_keep_v1 (W4 m ρ c)).trans (W4_v1 m ρ c)
theorem W5_v3 : W5 m ρ c (Proc.devRef .tc main_v3) = Cert.ReferenceIdeal.Read.val_main_v3 (F := Ideal) (m ((c.tc : Thread nD τ).loc main_arg7)) :=
  (d_keep_v3 (W4 m ρ c)).trans (W4_v3 m ρ c)
theorem W5_arg1 : W5 m ρ c (Proc.devRef .tc main_arg1) = (m ((c.tc : Thread nD τ).loc main_arg1)) :=
  (d_keep_arg1 (W4 m ρ c)).trans (W4_arg1 m ρ c)
theorem W5_arg5 : W5 m ρ c (Proc.devRef .tc main_arg5) = (m ((c.tc : Thread nD τ).loc main_arg5)) :=
  (d_keep_arg5 (W4 m ρ c)).trans (W4_arg5 m ρ c)
theorem W5_arg6 : W5 m ρ c (Proc.devRef .tc main_arg6) = (m ((c.tc : Thread nD τ).loc main_arg6)) :=
  (d_keep_arg6 (W4 m ρ c)).trans (W4_arg6 m ρ c)

theorem W6_v35 : W6 m ρ c (Proc.devRef .tc main_v35) = Cert.ReferenceIdeal.Read.val_main_v38 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) := by
  rw [Cert.ReferenceIdeal.Stages.v38_eq (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (shapeCast S1x128 (m ((c.tc : Thread nD τ).loc main_arg4)) shapeCasts_S128_S1x128)
    (fun k => row_of_vec (m ((c.tc : Thread nD τ).loc main_arg4)) shapeCasts_S128_S1x128 k)]
  refine (W6_arr m ρ c 3).trans ((Region1.final (V5 m ρ) c).trans ?_)
  show matProd (biasRelu Payload.zeroF (W5 m ρ c (Proc.devRef .tc main_v33)) (W5 m ρ c (Proc.devRef .tc main_v34))) (W5 m ρ c (Proc.devRef .tc main_arg5)) = _
  rw [W5_v33, W5_v34, W5_arg5]
theorem W6_v19 : W6 m ρ c (Proc.devRef .tc main_v19) = Cert.ReferenceIdeal.Read.val_main_v19 (F := Ideal) (m ((c.tc : Thread nD τ).loc main_arg2)) (m ((c.tc : Thread nD τ).loc main_arg7)) :=
  (W6_of_ne m ρ c main_v19 (by decide)).trans (W5_v19 m ρ c)
theorem W6_v1 : W6 m ρ c (Proc.devRef .tc main_v1) = Cert.ReferenceIdeal.Read.val_main_v1 (F := Ideal) (m ((c.tc : Thread nD τ).loc main_arg7)) :=
  (W6_of_ne m ρ c main_v1 (by decide)).trans (W5_v1 m ρ c)
theorem W6_v3 : W6 m ρ c (Proc.devRef .tc main_v3) = Cert.ReferenceIdeal.Read.val_main_v3 (F := Ideal) (m ((c.tc : Thread nD τ).loc main_arg7)) :=
  (W6_of_ne m ρ c main_v3 (by decide)).trans (W5_v3 m ρ c)
theorem W6_arg1 : W6 m ρ c (Proc.devRef .tc main_arg1) = (m ((c.tc : Thread nD τ).loc main_arg1)) :=
  (W6_of_ne m ρ c main_arg1 (by decide)).trans (W5_arg1 m ρ c)
theorem W6_arg6 : W6 m ρ c (Proc.devRef .tc main_arg6) = (m ((c.tc : Thread nD τ).loc main_arg6)) :=
  (W6_of_ne m ρ c main_arg6 (by decide)).trans (W5_arg6 m ρ c)

/-! ## The second aggregation, and region 2: bias and sigmoid -/

theorem W7_v48 : W7 m ρ c (Proc.devRef .tc main_v48) = Cert.ReferenceIdeal.Read.val_main_v51 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) :=
  e_v48 (W6 m ρ c) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (W6_v35 m ρ c) (W6_v19 m ρ c) (W6_v1 m ρ c) (W6_v3 m ρ c)
theorem W7_v49 : W7 m ρ c (Proc.devRef .tc main_v49) = shapeCast S1x64 (m ((c.tc : Thread nD τ).loc main_arg6)) shapeCasts_S64_S1x64 :=
  e_v49 (W6 m ρ c) (m ((c.tc : Thread nD τ).loc main_arg6)) (W6_arg6 m ρ c)
theorem W7_v19 : W7 m ρ c (Proc.devRef .tc main_v19) = Cert.ReferenceIdeal.Read.val_main_v19 (F := Ideal) (m ((c.tc : Thread nD τ).loc main_arg2)) (m ((c.tc : Thread nD τ).loc main_arg7)) :=
  (e_keep_v19 (W6 m ρ c)).trans (W6_v19 m ρ c)
theorem W7_v1 : W7 m ρ c (Proc.devRef .tc main_v1) = Cert.ReferenceIdeal.Read.val_main_v1 (F := Ideal) (m ((c.tc : Thread nD τ).loc main_arg7)) :=
  (e_keep_v1 (W6 m ρ c)).trans (W6_v1 m ρ c)
theorem W7_v3 : W7 m ρ c (Proc.devRef .tc main_v3) = Cert.ReferenceIdeal.Read.val_main_v3 (F := Ideal) (m ((c.tc : Thread nD τ).loc main_arg7)) :=
  (e_keep_v3 (W6 m ρ c)).trans (W6_v3 m ρ c)
theorem W7_arg1 : W7 m ρ c (Proc.devRef .tc main_arg1) = (m ((c.tc : Thread nD τ).loc main_arg1)) :=
  (e_keep_arg1 (W6 m ρ c)).trans (W6_arg1 m ρ c)

theorem W8_v50 : W8 m ρ c (Proc.devRef .tc main_v50) = Cert.ReferenceIdeal.Read.val_main_v60 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [Cert.ReferenceIdeal.Stages.v60_eq (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (shapeCast S1x64 (m ((c.tc : Thread nD τ).loc main_arg6)) shapeCasts_S64_S1x64)
    (fun q => row_of_vec (m ((c.tc : Thread nD τ).loc main_arg6)) shapeCasts_S64_S1x64 q)]
  refine (W8_arr m ρ c 2).trans ((Region2.final (V7 m ρ) c).trans ?_)
  show biasLogistic (W7 m ρ c (Proc.devRef .tc main_v48)) (W7 m ρ c (Proc.devRef .tc main_v49)) = _
  rw [W7_v48, W7_v49]
theorem W8_v19 : W8 m ρ c (Proc.devRef .tc main_v19) = Cert.ReferenceIdeal.Read.val_main_v19 (F := Ideal) (m ((c.tc : Thread nD τ).loc main_arg2)) (m ((c.tc : Thread nD τ).loc main_arg7)) :=
  (W8_of_ne m ρ c main_v19 (by decide)).trans (W7_v19 m ρ c)
theorem W8_v1 : W8 m ρ c (Proc.devRef .tc main_v1) = Cert.ReferenceIdeal.Read.val_main_v1 (F := Ideal) (m ((c.tc : Thread nD τ).loc main_arg7)) :=
  (W8_of_ne m ρ c main_v1 (by decide)).trans (W7_v1 m ρ c)
theorem W8_v3 : W8 m ρ c (Proc.devRef .tc main_v3) = Cert.ReferenceIdeal.Read.val_main_v3 (F := Ideal) (m ((c.tc : Thread nD τ).loc main_arg7)) :=
  (W8_of_ne m ρ c main_v3 (by decide)).trans (W7_v3 m ρ c)
theorem W8_arg1 : W8 m ρ c (Proc.devRef .tc main_arg1) = (m ((c.tc : Thread nD τ).loc main_arg1)) :=
  (W8_of_ne m ρ c main_arg1 (by decide)).trans (W7_arg1 m ρ c)

/-! ## Label propagation, and region 3: the sigmoid with a row of zeros -/

theorem W9_v115 : W9 m ρ c (Proc.devRef .tc main_v115) = Cert.ReferenceIdeal.Read.val_main_v125 (F := Ideal) (m ((c.tc : Thread nD τ).loc main_arg1)) (m ((c.tc : Thread nD τ).loc main_arg2)) (m ((c.tc : Thread nD τ).loc main_arg7)) :=
  f_v115 (W8 m ρ c) (m ((c.tc : Thread nD τ).loc main_arg1)) (m ((c.tc : Thread nD τ).loc main_arg2)) (m ((c.tc : Thread nD τ).loc main_arg7)) (W8_arg1 m ρ c) (W8_v19 m ρ c) (W8_v1 m ρ c) (W8_v3 m ρ c)
theorem W9_v117 : W9 m ρ c (Proc.devRef .tc main_v117)
    = shapeCast S1x64 (broadcastInDim S64 ![] bcast_S_S64 (constant (F := Ideal) S_ .f32 0x00000000#32)) shapeCasts_S64_S1x64 :=
  f_v117 (W8 m ρ c)
theorem W9_v50 : W9 m ρ c (Proc.devRef .tc main_v50) = Cert.ReferenceIdeal.Read.val_main_v60 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (f_keep_v50 (W8 m ρ c)).trans (W8_v50 m ρ c)

/-! ## The two results -/

/-- The second result: the sigmoid of the propagated labels. -/
theorem W10_v118 : W10 m ρ c (Proc.devRef .tc main_v118) = Cert.ReferenceIdeal.Read.val_main_v131 (F := Ideal) (m ((c.tc : Thread nD τ).loc main_arg1)) (m ((c.tc : Thread nD τ).loc main_arg2)) (m ((c.tc : Thread nD τ).loc main_arg7)) := by
  rw [Cert.ReferenceIdeal.Stages.v131_eq (m ((c.tc : Thread nD τ).loc main_arg1)) (m ((c.tc : Thread nD τ).loc main_arg2)) (m ((c.tc : Thread nD τ).loc main_arg7))
    (shapeCast S1x64 (broadcastInDim S64 ![] bcast_S_S64 (constant (F := Ideal) S_ .f32 0x00000000#32)) shapeCasts_S64_S1x64)
    (fun q => zero_row q)]
  refine (W10_arr m ρ c 2).trans ((Region3.final (V9 m ρ) c).trans ?_)
  show biasLogistic (W9 m ρ c (Proc.devRef .tc main_v115)) (W9 m ρ c (Proc.devRef .tc main_v117)) = _
  rw [W9_v115, W9_v117]

/-- The first result: the sigmoid of the biased second aggregation, which region 3 leaves in place. -/
theorem W10_v50 : W10 m ρ c (Proc.devRef .tc main_v50) = Cert.ReferenceIdeal.Read.val_main_v60 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W10_of_ne m ρ c main_v50 (by decide)).trans (W9_v50 m ρ c)

end Cert.KernelIdeal.Chain

end
-- ==== Proof.lean ====
/-
  Two programs for a two-layer graph convolution with label propagation compute the same two arrays.

  Both programs take node features `x` (50000×128), soft labels (50000×64), 800000 weighted edges and the weights and
  biases of two layers. Both normalize the edge weights by the weighted degree of each edge's source node (zero where
  the degree is zero) and aggregate an array over the graph by gathering its rows at the edges' target nodes, scaling
  them by the normalized weights and summing them by source node. The first result is
  `sigmoid (agg (max (agg (x · w1) + b1, 0) · w2) + b2)`, the second `sigmoid (agg⁵ (labels))`.
  The kernel program computes the two matrix products (the second one fused with the bias and the maximum with zero)
  and the two sigmoids in four pipelined kernel regions over ten blocks of 5000 rows, with the aggregations as host
  operations between them; the reference computes everything with host operations.

  Read on the extended reals the two agree, entry by entry, at every input:
    * a change of float format is the identity, so a region's product of rounded blocks is the product; a product
      computed block of rows by block of rows is the whole product, since each entry depends on one row of the left
      array; a bias reshaped to one row and added to every row of a block is the bias broadcast over the whole array;
    * the kernel's logistic operation is by definition `1 / (1 + e^(−x))`, the expression the reference spells, at
      every extended real; the last region's bias is a row of zeros, and `x + 0 = x`;
    * the host operations around the regions are the same operations in both programs, applied to equal arrays.
  No step uses that the inputs are finite. The kernel program's run with its results named is KRun.lean; its buffers
  at every boundary are read in Chain.lean; the reference's run and its stage functions are the generated
  Run and Read modules. The three frame claims are the generated frames, and the ideal pass rewrote nothing.
-/
import proofs.«175650_j5995774346009_1_alg».proof.Defs
import proofs.«175650_j5995774346009_1_alg».proof.Proof.Gen.Kernel
import proofs.«175650_j5995774346009_1_alg».proof.Proof.Gen.Kernel.Skeleton
import proofs.«175650_j5995774346009_1_alg».proof.Proof.Gen.Kernel.Launch
import proofs.«175650_j5995774346009_1_alg».proof.Proof.Gen.Kernel.Points
import proofs.«175650_j5995774346009_1_alg».proof.Proof.Gen.Kernel.Frame
import proofs.«175650_j5995774346009_1_alg».proof.Proof.Gen.KernelIdeal
import proofs.«175650_j5995774346009_1_alg».proof.Proof.Gen.KernelIdeal.Skeleton
import proofs.«175650_j5995774346009_1_alg».proof.Proof.Gen.KernelIdeal.Launch
import proofs.«175650_j5995774346009_1_alg».proof.Proof.Gen.KernelIdeal.Points
import proofs.«175650_j5995774346009_1_alg».proof.Proof.Gen.KernelIdeal.Frame
import proofs.«175650_j5995774346009_1_alg».proof.Proof.Gen.ReferenceIdeal
import proofs.«175650_j5995774346009_1_alg».proof.Proof.Gen.ReferenceIdeal.Run
import proofs.«175650_j5995774346009_1_alg».proof.Proof.Gen.ReferenceIdeal.Read
import proofs.«175650_j5995774346009_1_alg».proof.Proof.Gen.Pre_finite_inputs
import proofs.«175650_j5995774346009_1_alg».proof.Proof.KRun
import proofs.«175650_j5995774346009_1_alg».proof.Proof.Chain
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories agreeing on the arguments both programs run, and their two results are the reference's two stage
    functions of the arguments' launch contents. -/
theorem algebraic : Cert.algebraic_KernelIdeal_ReferenceIdeal := by
  intro m ρ m' ρ' _ hagree
  refine ⟨fun c => Cert.ReferenceIdeal.Read.val_main_v60 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Read.val_main_v131 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.W10_v50 m ρ c),
        (h c).2.1.trans (Cert.KernelIdeal.Chain.W10_v118 m ρ c), (h c).2.2⟩)
      (Cert.KernelIdeal.KRun.run (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨a0, a1, a2, a3, a4, a5, a6, a7⟩ := hagree c
      rw [Cert.ReferenceIdeal.Read.val_main_v60_eq, a0, a2, a3, a4, a5, a6, a7]
    · obtain ⟨a0, a1, a2, a3, a4, a5, a6, a7⟩ := hagree c
      rw [Cert.ReferenceIdeal.Read.val_main_v131_eq, a1, a2, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
